-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S100000 : Shape := ⟨1, ![100000]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S32 .f32) (main_arg7 : FVec F S32x2 .f32) (main_arg8 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg7
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x8 .f32) (main_arg1 : IVec S2x3200000 32) (main_arg2 : IVec S100000 32) (main_arg3 : FVec F S8x32 .f32) (main_arg4 : FVec F S32 .f32) (main_arg5 : FVec F S32x32 .f32) (main_arg6 : FVec F S32 .f32) (main_arg7 : FVec F S32x2 .f32) (main_arg8 : FVec F S2 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x32 .f32 := Host.absf main_arg3
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x8 : Shape := ⟨2, ![100000, 8]⟩
abbrev S2x3200000 : Shape := ⟨2, ![2, 3200000]⟩
abbrev S100000 : Shape := ⟨1, ![100000]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x32 : Shape := ⟨2, ![100000, 32]⟩
abbrev S2000x8 : Shape := ⟨2, ![2000, 8]⟩
abbrev S2000x1 : Shape := ⟨2, ![2000, 1]⟩
abbrev S2000x32 : Shape := ⟨2, ![2000, 32]⟩
abbrev S3300000x32 : Shape := ⟨2, ![3300000, 32]⟩
abbrev S10000x32 : Shape := ⟨2, ![10000, 32]⟩
abbrev S10000x1 : Shape := ⟨2, ![10000, 1]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 94
  | .vmem => 40
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S100000, .i32⟩
  | .hbm, ⟨3, _⟩ => ⟨S8x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000x1, .f32⟩
  | .hbm, ⟨40, _⟩ => ⟨S100000x1, .f32⟩
  | .hbm, ⟨41, _⟩ => ⟨S100000x32, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x1, .f32⟩
  | .hbm, ⟨59, _⟩ => ⟨S100000x32, .f32⟩
  | .hbm, ⟨60, _⟩ => ⟨S_, .i32⟩
  | .hbm, ⟨61, _⟩ => ⟨S3300000, .i32⟩
  | .hbm, ⟨62, _⟩ => ⟨S3300000, .i1⟩
  | .hbm, ⟨63, _⟩ => ⟨S_, .i32⟩
  | .hbm, ⟨64, _⟩ => ⟨S3300000, .i32⟩
  | .hbm, ⟨65, _⟩ => ⟨S3300000, .i32⟩
  | .hbm, ⟨66, _⟩ => ⟨S3300000, .i32⟩
  | .hbm, ⟨67, _⟩ => ⟨S3300000x1, .i32⟩
  | .hbm, ⟨68, _⟩ => ⟨S3300000x32, .f32⟩
  | .hbm, ⟨69, _⟩ => ⟨S3300000x32, .f32⟩
  | .hbm, ⟨70, _⟩ => ⟨S_, .f32⟩
  | .hbm, ⟨71, _⟩ => ⟨S100000x32, .f32⟩
  | .hbm, ⟨72, _⟩ => ⟨S3300000x1, .i32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S_, .f32⟩
  | .hbm, ⟨77, _⟩ => ⟨S512x32, .f32⟩
  | .hbm, ⟨78, _⟩ => ⟨S100000x1, .i32⟩
  | .hbm, ⟨79, _⟩ => ⟨S512x32, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S512, .f32⟩
  | .hbm, ⟨84, _⟩ => ⟨S100000x1, .i32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S512, .f32⟩
  | .hbm, ⟨89, _⟩ => ⟨S512x1, .f32⟩
  | .hbm, ⟨90, _⟩ => ⟨S512x32, .f32⟩
  | .hbm, ⟨91, _⟩ => ⟨S512x32, .f32⟩
  | .hbm, ⟨92, _⟩ => ⟨S1x2, .f32⟩
  | .hbm, ⟨93, _⟩ => ⟨S512x2, .f32⟩
  | .local _ .vmem, ⟨0, _⟩ => ⟨S2000x8, .f32⟩
  | .local _ .vmem, ⟨1, _⟩ => ⟨S2000x8, .f32⟩
  | .local _ .vmem, ⟨2, _⟩ => ⟨S8x32, .f32⟩
  | .local _ .vmem, ⟨3, _⟩ => ⟨S2000x1, .f32⟩
  | .local _ .vmem, ⟨4, _⟩ => ⟨S2000x1, .f32⟩
  | .local _ .vmem, ⟨5, _⟩ => ⟨S2000x32, .f32⟩
  | .local _ .vmem, ⟨6, _⟩ => ⟨S2000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S10000x32, .f32⟩
  | .local _ .vmem, ⟨12, _⟩ => ⟨S10000x32, .f32⟩
  | .local _ .vmem, ⟨13, _⟩ => ⟨S2000x32, .f32⟩
  | .local _ .vmem, ⟨14, _⟩ => ⟨S2000x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S32x32, .f32⟩
  | .local _ .vmem, ⟨21, _⟩ => ⟨S2000x1, .f32⟩
  | .local _ .vmem, ⟨22, _⟩ => ⟨S2000x1, .f32⟩
  | .local _ .vmem, ⟨23, _⟩ => ⟨S2000x32, .f32⟩
  | .local _ .vmem, ⟨24, _⟩ => ⟨S2000x32, .f32⟩
  | .local _ .vmem, ⟨25, _⟩ => ⟨S10000x32, .f32⟩
  | .local _ .vmem, ⟨26, _⟩ => ⟨S10000x32, .f32⟩
  | .local _ .vmem, ⟨27, _⟩ => ⟨S10000x1, .f32⟩
  | .local _ .vmem, ⟨28, _⟩ => ⟨S10000x1, .f32⟩
  | .local _ .vmem, ⟨29, _⟩ => ⟨S10000x32, .f32⟩
  | .local _ .vmem, ⟨30, _⟩ => ⟨S10000x32, .f32⟩
  | .local _ .vmem, ⟨31, _⟩ => ⟨S2000x32, .f32⟩
  | .local _ .vmem, ⟨32, _⟩ => ⟨S2000x32, .f32⟩
  | .local _ .vmem, ⟨33, _⟩ => ⟨S1x32, .f32⟩
  | .local _ .vmem, ⟨34, _⟩ => ⟨S2000x32, .f32⟩
  | .local _ .vmem, ⟨35, _⟩ => ⟨S2000x32, .f32⟩
  | .local _ .vmem, ⟨36, _⟩ => ⟨S512x32, .f32⟩
  | .local _ .vmem, ⟨37, _⟩ => ⟨S32x2, .f32⟩
  | .local _ .vmem, ⟨38, _⟩ => ⟨S1x2, .f32⟩
  | .local _ .vmem, ⟨39, _⟩ => ⟨S512x2, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem1_0 : DmaSem sig := 37
abbrev cc6_sem2_0 : DmaSem sig := 38
abbrev cc6_sem3_0 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![330], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![330], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  shapeCasts_S100000_S100000x1 : S100000.ShapeCasts S100000x1
  inb_S2000x8_S2000x8_0_0 : ∀ a, (![0, 0] : Fin 2 → Nat) a + S2000x8.size a ≤ S2000x8.size a
  h_S2000x8 : 0 < S2000x8.numel
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  bcast_S_S512x32 : S_.BroadcastsInDim S512x32 (![] : Fin 0 → Fin S512x32.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  shapeCasts_S2_S1x2 : S2.ShapeCasts S1x2
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x8_S8x32_S2000x32_1_0_0_1_n_n_wf : DotDims.WF S2000x8 S8x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x32_S2000x32_1_0_0_1_n_n_wf : DotDims.WF S2000x32 S32x32 S2000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x2_S512x2_1_0_0_1_n_n_wf : DotDims.WF S512x32 S32x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S3300000x32.size a
  hwx1_0 : ∀ i : grid1.Coords, EltTy.bits .f32 = 32 ∨ (Rect.block (s := S3300000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S3300000x1.size a
  hwx1_1 : ∀ i : grid1.Coords, EltTy.bits .f32 = 32 ∨ (Rect.block (s := S3300000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S3300000x32.size a
  hwx1_2 : ∀ i : grid1.Coords, EltTy.bits .f32 = 32 ∨ (Rect.block (s := S3300000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S100000x32.size a
  hwx3_3 : ∀ i : grid3.Coords, EltTy.bits .f32 = 32 ∨ (Rect.block (s := S100000x32) S2000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S3300000x32.size a
  hwx4_0 : ∀ i : grid4.Coords, EltTy.bits .f32 = 32 ∨ (Rect.block (s := S3300000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S3300000x1.size a
  hwx4_1 : ∀ i : grid4.Coords, EltTy.bits .f32 = 32 ∨ (Rect.block (s := S3300000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S3300000x32.size a
  hwx4_2 : ∀ i : grid4.Coords, EltTy.bits .f32 = 32 ∨ (Rect.block (s := S3300000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x32.size a ≤ S512x32.size a
  hwx6_0 : ∀ i : grid6.Coords, EltTy.bits .f32 = 32 ∨ (Rect.block (s := S512x32) S512x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x2.size a ≤ S32x2.size a
  hwx6_1 : ∀ i : grid6.Coords, EltTy.bits .f32 = 32 ∨ (Rect.block (s := S32x2) S32x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x2.size a ≤ S512x2.size a
  hwx6_3 : ∀ i : grid6.Coords, EltTy.bits .f32 = 32 ∨ (Rect.block (s := S512x2) S512x2.size (cc6_transform_3 i) (hinb6_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x8_S8x32_S2000x32_1_0_0_1_n_n : DotDims S2000x8 S8x32 S2000x32 where
  lhsContracting := [1]
  rhsContracting := [0]
  lhsNonContracting := [0]
  rhsNonContracting := [1]
  lhsBatch := []
  rhsBatch := []
  wf := dot_S2000x8_S8x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v52) S2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v64) S512x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S32x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S512x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S100000 : Shape := ⟨1, ![100000]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S512x32 : Shape := ⟨2, ![512, 32]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S100000x8, .f32⟩
  | 1 => ⟨S2x3200000, .i32⟩
  | 2 => ⟨S100000, .i32⟩
  | 3 => ⟨S8x32, .f32⟩
  | 4 => ⟨S32, .f32⟩
  | 5 => ⟨S32x32, .f32⟩
  | 6 => ⟨S32, .f32⟩
  | 7 => ⟨S32x2, .f32⟩
  | 8 => ⟨S2, .f32⟩
  | 9 => ⟨S1x3200000, .i32⟩
  | 10 => ⟨S3200000, .i32⟩
  | 11 => ⟨S1x3200000, .i32⟩
  | 12 => ⟨S3200000, .i32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S100000x32, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000x32, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S3300000x1, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S100000x32, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000x32, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S3300000x1, .f32⟩
  | 119 => ⟨S3300000x32, .f32⟩
  | 120 => ⟨S3300000x32, .f32⟩
  | 121 => ⟨S_, .f32⟩
  | 122 => ⟨S100000x32, .f32⟩
  | 123 => ⟨S3300000x1, .i32⟩
  | 124 => ⟨S100000x32, .f32⟩
  | 125 => ⟨S1x32, .f32⟩
  | 126 => ⟨S100000x32, .f32⟩
  | 127 => ⟨S100000x32, .f32⟩
  | _ => ⟨S100000x8, .f32⟩

abbrev hbmTy0_1 (i : Nat) : BufTy := match i % 128 with
  | 0 => ⟨S_, .f32⟩
  | 1 => ⟨S100000x32, .f32⟩
  | 2 => ⟨S100000x32, .f32⟩
  | 3 => ⟨S_, .f32⟩
  | 4 => ⟨S512x32, .f32⟩
  | 5 => ⟨S100000x1, .i32⟩
  | 6 => ⟨S512x32, .f32⟩
  | 7 => ⟨S_, .f32⟩
  | 8 => ⟨S100000, .f32⟩
  | 9 => ⟨S_, .f32⟩
  | 10 => ⟨S512, .f32⟩
  | 11 => ⟨S100000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x32, .f32⟩
  | 18 => ⟨S512x32, .f32⟩
  | 19 => ⟨S512x2, .f32⟩
  | 20 => ⟨S1x2, .f32⟩
  | 21 => ⟨S512x2, .f32⟩
  | 22 => ⟨S512x2, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512x32 : S_.BroadcastsInDim S512x32 (![] : Fin 0 → Fin S512x32.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S3300000x1_S3300000_n_0_0_1_wf : ScatterDims.WF S100000 S3300000x1 S3300000 [] [0] [0] 1
  dot_S100000x8_S8x32_S100000x32_1_0_0_1_n_n_wf : DotDims.WF S100000x8 S8x32 S100000x32 [1] [0] [0] [1] [] []
  gather_S100000x32_S3300000x1_S3300000x32_1_0_n_n_0_1_132_wf : GatherDims.WF S100000x32 S3300000x1 S3300000x32 [1] [0] [] [0] [] 1 ![1, 32]
  gather_S100000_S3300000x1_S3300000_n_0_n_n_0_1_1_wf : GatherDims.WF S100000 S3300000x1 S3300000 [] [0] [] [0] [] 1 ![1]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x2_S512x2_1_0_0_1_n_n_wf : DotDims.WF S512x32 S32x2 S512x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

class Facts : Prop extends Facts₀ where

variable [Facts]
-- ==== Proof.KernelRun.lean ====
/-
  The kernel program's run with its final memory named.

  The program is seven kernel launches among stretches of host operations.  The contents of the TensorCore's
  buffers at each boundary form a fold from the launch memory: a host stretch applies its operations, a launch
  replaces its arrays by what its write-backs leave.  Every weakly fair execution terminates without fault, and in
  the final state every buffer that is not scoped to a launch holds the fold's last valuation at that buffer —
  the result buffer and the argument buffers among them.
-/
import proofs.«175829_j26723286516384_1_alg».proof.Proof.Gen.KernelIdeal.Frame

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with each unscoped buffer at the last
    valuation of the fold through the program's segments. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- The same run, read at the result buffer and at the nine argument buffers. -/
theorem run_result : θ_run defs (onTc (τ := τ) (main (F := F))) ⟨m, fun _ => 0, ρ⟩ (fun r => ∀ c : Dev nD,
      r.2.mem ((c.tc : Thread nD τ).loc main_v66) = W16 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v66 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)
    (run_fold m ρ)

end Cert.KernelIdeal.Result

end
-- ==== Proof.FoldKeep.lean ====
/-
  The fold of the kernel program's buffer contents, one segment at a time: what it keeps.

  A host stretch rewrites exactly the buffers its operations write, and a kernel launch rewrites exactly its output
  array (an input array is read through its window and left as found).  So a buffer that a segment does not
  write holds after the segment what it held before.  These are the steps by which a value computed early — the
  index vectors, the degree normalisation, an argument — is carried to the later segment that reads it.
-/
import proofs.«175829_j26723286516384_1_alg».proof.Proof.Gen.KernelIdeal.Frame

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each host stretch writes -/

/-- The buffers `hostOps0` writes. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_writes : (hostOps0 : List (HloOp τ sig (Elt F))).Forall fun op => op.writes ⊆ (wr0.map (Proc.devRef (τ := τ) .tc)).toFinset := by
  simp only [hostOps0, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps0_1` writes. -/
abbrev wr0_1 : List (Ref sig .tc) := [main_call0_v0, main_call0_v1, main_v14]
theorem wr0_1_writes : (hostOps0_1 : List (HloOp τ sig (Elt F))).Forall fun op => op.writes ⊆ (wr0_1.map (Proc.devRef (τ := τ) .tc)).toFinset := by
  simp only [hostOps0_1, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps0_2` writes. -/
abbrev wr0_2 : List (Ref sig .tc) := [main_c, main_v15, main_v16, main_c_3, main_v17, main_v18, main_v19, main_v20, main_v21, main_v22, main_v23]
theorem wr0_2_writes : (hostOps0_2 : List (HloOp τ sig (Elt F))).Forall fun op => op.writes ⊆ (wr0_2.map (Proc.devRef (τ := τ) .tc)).toFinset := by
  simp only [hostOps0_2, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps1` writes. -/
abbrev wr1 : List (Ref sig .tc) := [main_c_4, main_v25, main_v26, main_c_5, main_v27, main_v28, main_v29, main_v30, main_v31]
theorem wr1_writes : (hostOps1 : List (HloOp τ sig (Elt F))).Forall fun op => op.writes ⊆ (wr1.map (Proc.devRef (τ := τ) .tc)).toFinset := by
  simp only [hostOps1, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps2` writes. -/
abbrev wr2 : List (Ref sig .tc) := [main_cst_6, main_v33, main_v34, main_v35, main_v36]
theorem wr2_writes : (hostOps2 : List (HloOp τ sig (Elt F))).Forall fun op => op.writes ⊆ (wr2.map (Proc.devRef (τ := τ) .tc)).toFinset := by
  simp only [hostOps2, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps3` writes. -/
abbrev wr3 : List (Ref sig .tc) := [main_v38]
theorem wr3_writes : (hostOps3 : List (HloOp τ sig (Elt F))).Forall fun op => op.writes ⊆ (wr3.map (Proc.devRef (τ := τ) .tc)).toFinset := by
  simp only [hostOps3, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps4` writes. -/
abbrev wr4 : List (Ref sig .tc) := [main_c_7, main_v40, main_v41, main_c_8, main_v42, main_v43, main_v44, main_v45, main_v46]
theorem wr4_writes : (hostOps4 : List (HloOp τ sig (Elt F))).Forall fun op => op.writes ⊆ (wr4.map (Proc.devRef (τ := τ) .tc)).toFinset := by
  simp only [hostOps4, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps5` writes. -/
abbrev wr5 : List (Ref sig .tc) := [main_cst_9, main_v48, main_v49, main_v50, main_v51]
theorem wr5_writes : (hostOps5 : List (HloOp τ sig (Elt F))).Forall fun op => op.writes ⊆ (wr5.map (Proc.devRef (τ := τ) .tc)).toFinset := by
  simp only [hostOps5, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-- The buffers `hostOps6` writes. -/
abbrev wr6 : List (Ref sig .tc) := [main_cst_10, main_v53, main_v54, main_v55, main_cst_11, main_v56, main_cst_12, main_v57, main_v58, main_v59, main_cst_13, main_v60, main_v61, main_v62, main_v63, main_v64, main_v65]
theorem wr6_writes : (hostOps6 : List (HloOp τ sig (Elt F))).Forall fun op => op.writes ⊆ (wr6.map (Proc.devRef (τ := τ) .tc)).toFinset := by
  simp only [hostOps6, List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

/-! ## A host stretch keeps what it does not write -/

theorem keep1 (c : Dev nD) (r : Ref sig .tc) (h : r ∉ wr0) :
    W1 m ρ c (Proc.devRef .tc r) = W0 m ρ c (Proc.devRef .tc r) :=
  StableHlo.after_of_writes_sub hostOps0 _ wr0_writes h
theorem keep2 (c : Dev nD) (r : Ref sig .tc) (h : r ∉ wr0_1) :
    W2 m ρ c (Proc.devRef .tc r) = W1 m ρ c (Proc.devRef .tc r) :=
  StableHlo.after_of_writes_sub hostOps0_1 _ wr0_1_writes h
theorem keep3 (c : Dev nD) (r : Ref sig .tc) (h : r ∉ wr0_2) :
    W3 m ρ c (Proc.devRef .tc r) = W2 m ρ c (Proc.devRef .tc r) :=
  StableHlo.after_of_writes_sub hostOps0_2 _ wr0_2_writes h
theorem keep5 (c : Dev nD) (r : Ref sig .tc) (h : r ∉ wr1) :
    W5 m ρ c (Proc.devRef .tc r) = W4 m ρ c (Proc.devRef .tc r) :=
  StableHlo.after_of_writes_sub hostOps1 _ wr1_writes h
theorem keep7 (c : Dev nD) (r : Ref sig .tc) (h : r ∉ wr2) :
    W7 m ρ c (Proc.devRef .tc r) = W6 m ρ c (Proc.devRef .tc r) :=
  StableHlo.after_of_writes_sub hostOps2 _ wr2_writes h
theorem keep9 (c : Dev nD) (r : Ref sig .tc) (h : r ∉ wr3) :
    W9 m ρ c (Proc.devRef .tc r) = W8 m ρ c (Proc.devRef .tc r) :=
  StableHlo.after_of_writes_sub hostOps3 _ wr3_writes h
theorem keep11 (c : Dev nD) (r : Ref sig .tc) (h : r ∉ wr4) :
    W11 m ρ c (Proc.devRef .tc r) = W10 m ρ c (Proc.devRef .tc r) :=
  StableHlo.after_of_writes_sub hostOps4 _ wr4_writes h
theorem keep13 (c : Dev nD) (r : Ref sig .tc) (h : r ∉ wr5) :
    W13 m ρ c (Proc.devRef .tc r) = W12 m ρ c (Proc.devRef .tc r) :=
  StableHlo.after_of_writes_sub hostOps5 _ wr5_writes h
theorem keep15 (c : Dev nD) (r : Ref sig .tc) (h : r ∉ wr6) :
    W15 m ρ c (Proc.devRef .tc r) = W14 m ρ c (Proc.devRef .tc r) :=
  StableHlo.after_of_writes_sub hostOps6 _ wr6_writes h

/-! ## A launch keeps an input array

The second per-edge scaling reads the same column of normalisations as the first, so that column has to be carried
across the first scaling's launch, of which it is an input array. -/

theorem keep6_v22 (c : Dev nD) : W6 m ρ c (Proc.devRef .tc main_v22) = W5 m ρ c (Proc.devRef .tc main_v22) :=
  (W6_arr m ρ c 1).trans (((dat1 (V5 m ρ) c).arrAt_in 1 rfl _).trans (A_eq1 (V5 m ρ) c 1))

end Cert.KernelIdeal.Fold

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«175829_j26723286516384_1_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.LibGcnTile.lean ====
/-
  The self-loop, bias and rectifier stage of a graph-convolution layer, read at an entry (p, q) in its two spellings.

  * In a row tile: the aggregated block plus the projected block times a column of per-row weights, the column a
    `[A, 1]` block broadcast across the lanes; plus a `[1, B]` bias row broadcast down the rows; then the maximum
    with the zero splat.
  * In a host program: the same sum with the weights a vector `[A]` made a column `[A, 1]` and repeated to
    `[A, B]`, the bias a vector `[B]` made a row `[1, B]` and repeated to `[A, B]`, and the zero a scalar
    constant repeated to `[A, B]`.

  Both read, at (p, q), `max ((agg (p, q) + xw (p, q) * w p) + bias q) 0` on the extended reals.  Generic in the two
  extents.
-/
import Idealize.ShloMosaic.Lib.ValueLayout
import Idealize.ShloMosaic.Lib.Pipeline.Value
import Idealize.ShloMosaic.Lib.ValueIdx
import proofs.«175829_j26723286516384_1_alg».proof.Proof.LibHostRowCol
import proofs.«175829_j26723286516384_1_alg».proof.Proof.LibHostBiasRelu

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stage in a row tile, at entry (p, q). -/
theorem tileSelfBiasRelu_apply {A B : ℕ} (x0 x1 : FVec Ideal ⟨2, ![A, B]⟩ .f32) (x2 : FVec Ideal ⟨2, ![A, 1]⟩ .f32)
    (x3 : FVec Ideal ⟨2, ![1, B]⟩ .f32)
    (h0 : (⟨2, ![A, B]⟩ : Shape).ShapeCasts ⟨2, ![A, B]⟩) (h2 : (⟨2, ![A, 1]⟩ : Shape).ShapeCasts ⟨2, ![A, 1]⟩)
    (hb2 : (⟨2, ![A, 1]⟩ : Shape).Broadcasts ⟨2, ![A, B]⟩) (h3 : (⟨2, ![1, B]⟩ : Shape).ShapeCasts ⟨2, ![1, B]⟩)
    (hb3 : (⟨2, ![1, B]⟩ : Shape).Broadcasts ⟨2, ![A, B]⟩) (p : Fin A) (q : Fin B) :
    maximumf (addf (addf (shapeCast ⟨2, ![A, B]⟩ x0 h0)
          (mulf (shapeCast ⟨2, ![A, B]⟩ x1 h0) (broadcastTo ⟨2, ![A, B]⟩ (shapeCast ⟨2, ![A, 1]⟩ x2 h2) hb2)))
        (broadcastTo ⟨2, ![A, B]⟩ (shapeCast ⟨2, ![1, B]⟩ x3 h3) hb3))
      (broadcast ⟨2, ![A, B]⟩ (Scalar.ofBits (F := Ideal) .f32 0x00000000#32)) (ix2 p q)
      = max ((x0 (ix2 p q) + x1 (ix2 p q) * x2 (ix2 p (0 : Fin 1))) + x3 (ix2 (0 : Fin 1) q))
          (Ideal.ofBits .f32 0x00000000#32) := by
  rw [maximumf_apply, addf_apply, addf_apply, mulf_apply, shapeCast_self, shapeCast_self, shapeCast_self,
    shapeCast_self, broadcastTo_a1_ab_apply, broadcastTo_1b_ab_apply, broadcast_apply]
  rfl

/-- The stage in a host program, at entry (p, q). -/
theorem hostSelfBiasRelu_apply {A B : ℕ} (agg xw : FVec Ideal ⟨2, ![A, B]⟩ .f32) (w : FVec Ideal ⟨1, ![A]⟩ .f32)
    (bias : FVec Ideal ⟨1, ![B]⟩ .f32)
    (hc1 : (⟨1, ![A]⟩ : Shape).BroadcastsInDim ⟨2, ![A, 1]⟩ (![0] : Fin 1 → Fin 2))
    (hc2 : (⟨2, ![A, 1]⟩ : Shape).BroadcastsInDim ⟨2, ![A, B]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2)) (p : Fin A) (q : Fin B) :
    maximumf (addf (addf agg (mulf xw (broadcastInDim ⟨2, ![A, B]⟩ ![0, 1] hc2 (broadcastInDim ⟨2, ![A, 1]⟩ ![0] hc1 w))))
          (broadcastInDim ⟨2, ![A, B]⟩ ![0, 1] hr2 (broadcastInDim ⟨2, ![1, B]⟩ ![1] hr1 bias)))
        (broadcastInDim ⟨2, ![A, B]⟩ ![] hz (constant (F := Ideal) ⟨0, ![]⟩ .f32 0x00000000#32)) (ix2 p q)
      = max ((agg (ix2 p q) + xw (ix2 p q) * w (ix1 p)) + bias (ix1 q)) (Ideal.ofBits .f32 0x00000000#32) := by
  rw [hostBiasRelu_apply _ bias hr1 hr2 hz p q, addf_apply, mulf_apply, bcast_col_cols_apply w hc1 hc2 p q]

end Cert.Lib

end
-- ==== Proof.LibGcnStages.lean ====
/-
  The four dense stages of a two-layer graph convolution, each as ONE function of whole arrays, and each stage's
  row tile read at an entry.

  * `linScale h W d`  at (p, q):  (Σ_k h(p,k) · W(k,q)) · d(p,0)  — a projection whose rows are scaled by a column.
  * `scaleRows h d`   at (p, q):  h(p,q) · d(p,0)                  — every row times its entry of a column.
  * `biasRelu a b`    at (p, q):  max (a(p,q) + b(0,q)) 0           — a bias row added, then the rectifier.
  * `linBias x W b`   at (p, q):  Σ_k x(p,k) · W(k,q) + b(0,q)      — an affine map of each row.

  A row tile of T rows computes the same expression of its own T rows of the row-blocked operands and of the whole
  small operands (W, the bias row); a change of float format is the identity on the extended reals and the
  product into the zero accumulator is the plain sum over the contracted axis.  Generic in all extents.
-/
import Idealize.ShloMosaic.Lib.ValueLayout
import Idealize.ShloMosaic.Lib.Pipeline.Value
import Idealize.ShloMosaic.Lib.ValueIdx
import Idealize.ShloMosaic.PureOps.Ideal.Laws
import proofs.«175829_j26723286516384_1_alg».proof.Proof.LibMatmul2
import proofs.«175829_j26723286516384_1_alg».proof.Proof.LibGcnTile

noncomputable section

namespace Cert.Gcn

open scoped BigOperators
open Idealize.ShloMosaic Idealize.ShloMosaic.ValueIdx Cert.Lib

variable {A K B : ℕ}

/-- The row coordinate of an index of an `[A, B]` array. -/
def row (j : (⟨2, ![A, B]⟩ : Shape).Idx) : Fin A := j 0
/-- The column coordinate of an index of an `[A, B]` array. -/
def col (j : (⟨2, ![A, B]⟩ : Shape).Idx) : Fin B := j 1

theorem row_ix2 (p : Fin A) (q : Fin B) : row (ix2 p q) = p := rfl
theorem col_ix2 (p : Fin A) (q : Fin B) : col (ix2 p q) = q := rfl

/-- Rows of `h` projected by `W`, row `p` then scaled by `d (p, 0)`. -/
def linScale (h : FVec Ideal ⟨2, ![A, K]⟩ .f32) (W : FVec Ideal ⟨2, ![K, B]⟩ .f32) (d : FVec Ideal ⟨2, ![A, 1]⟩ .f32) :
    FVec Ideal ⟨2, ![A, B]⟩ .f32 :=
  fun j => (∑ k : Fin K, h (ix2 (row j) k) * W (ix2 k (col j))) * d (ix2 (row j) (0 : Fin 1))

/-- Row `p` of `h` times `d (p, 0)`. -/
def scaleRows (h : FVec Ideal ⟨2, ![A, B]⟩ .f32) (d : FVec Ideal ⟨2, ![A, 1]⟩ .f32) : FVec Ideal ⟨2, ![A, B]⟩ .f32 :=
  fun j => h (ix2 (row j) (col j)) * d (ix2 (row j) (0 : Fin 1))

/-- The bias row added to every row, then the maximum with zero. -/
def biasRelu (a : FVec Ideal ⟨2, ![A, B]⟩ .f32) (b : FVec Ideal ⟨2, ![1, B]⟩ .f32) : FVec Ideal ⟨2, ![A, B]⟩ .f32 :=
  fun j => max (a (ix2 (row j) (col j)) + b (ix2 (0 : Fin 1) (col j))) (Ideal.ofBits .f32 0x00000000#32)

/-- Rows of `x` through the affine map `W`, `b`. -/
def linBias (x : FVec Ideal ⟨2, ![A, K]⟩ .f32) (W : FVec Ideal ⟨2, ![K, B]⟩ .f32) (b : FVec Ideal ⟨2, ![1, B]⟩ .f32) :
    FVec Ideal ⟨2, ![A, B]⟩ .f32 :=
  fun j => (∑ k : Fin K, x (ix2 (row j) k) * W (ix2 k (col j))) + b (ix2 (0 : Fin 1) (col j))

theorem linScale_apply (h : FVec Ideal ⟨2, ![A, K]⟩ .f32) (W : FVec Ideal ⟨2, ![K, B]⟩ .f32)
    (d : FVec Ideal ⟨2, ![A, 1]⟩ .f32) (p : Fin A) (q : Fin B) :
    linScale h W d (ix2 p q) = (∑ k : Fin K, h (ix2 p k) * W (ix2 k q)) * d (ix2 p (0 : Fin 1)) := rfl

theorem scaleRows_apply (h : FVec Ideal ⟨2, ![A, B]⟩ .f32) (d : FVec Ideal ⟨2, ![A, 1]⟩ .f32) (p : Fin A) (q : Fin B) :
    scaleRows h d (ix2 p q) = h (ix2 p q) * d (ix2 p (0 : Fin 1)) := rfl

theorem biasRelu_apply (a : FVec Ideal ⟨2, ![A, B]⟩ .f32) (b : FVec Ideal ⟨2, ![1, B]⟩ .f32) (p : Fin A) (q : Fin B) :
    biasRelu a b (ix2 p q) = max (a (ix2 p q) + b (ix2 (0 : Fin 1) q)) (Ideal.ofBits .f32 0x00000000#32) := rfl

theorem linBias_apply (x : FVec Ideal ⟨2, ![A, K]⟩ .f32) (W : FVec Ideal ⟨2, ![K, B]⟩ .f32)
    (b : FVec Ideal ⟨2, ![1, B]⟩ .f32) (p : Fin A) (q : Fin B) :
    linBias x W b (ix2 p q) = (∑ k : Fin K, x (ix2 p k) * W (ix2 k q)) + b (ix2 (0 : Fin 1) q) := rfl

/-! ## The row tiles -/

/-- The projection tile: both operands change format (the identity), the product goes into the zero accumulator,
    and the result is multiplied by the column block broadcast across the lanes. -/
theorem tile_linScale (wf : DotDims.WF ⟨2, ![A, K]⟩ ⟨2, ![K, B]⟩ ⟨2, ![A, B]⟩ [1] [0] [0] [1] [] [])
    (x0 : FVec Ideal ⟨2, ![A, K]⟩ .f32) (x1 : FVec Ideal ⟨2, ![K, B]⟩ .f32) (x2 : FVec Ideal ⟨2, ![A, 1]⟩ .f32)
    (hlt : FTy.bf16.bits < FTy.f32.bits)
    (h2 : (⟨2, ![A, 1]⟩ : Shape).ShapeCasts ⟨2, ![A, 1]⟩) (hb : (⟨2, ![A, 1]⟩ : Shape).Broadcasts ⟨2, ![A, B]⟩)
    (p : Fin A) (q : Fin B) :
    mulf (matmul (plain2 wf) none (truncf .bf16 x0 hlt) (truncf .bf16 x1 hlt) (constant ⟨2, ![A, B]⟩ .f32 0x00000000#32))
        (broadcastTo ⟨2, ![A, B]⟩ (shapeCast ⟨2, ![A, 1]⟩ x2 h2) hb) (ix2 p q)
      = (∑ k : Fin K, x0 (ix2 p k) * x1 (ix2 k q)) * x2 (ix2 p (0 : Fin 1)) := by
  rw [mulf_apply, matmul2_zero_apply wf _ _ p q, shapeCast_self, broadcastTo_a1_ab_apply]
  rfl

/-- The row-scaling tile. -/
theorem tile_scaleRows (x0 : FVec Ideal ⟨2, ![A, B]⟩ .f32) (x1 : FVec Ideal ⟨2, ![A, 1]⟩ .f32)
    (h0 : (⟨2, ![A, B]⟩ : Shape).ShapeCasts ⟨2, ![A, B]⟩) (h1 : (⟨2, ![A, 1]⟩ : Shape).ShapeCasts ⟨2, ![A, 1]⟩)
    (hb : (⟨2, ![A, 1]⟩ : Shape).Broadcasts ⟨2, ![A, B]⟩) (p : Fin A) (q : Fin B) :
    mulf (shapeCast ⟨2, ![A, B]⟩ x0 h0) (broadcastTo ⟨2, ![A, B]⟩ (shapeCast ⟨2, ![A, 1]⟩ x1 h1) hb) (ix2 p q)
      = x0 (ix2 p q) * x1 (ix2 p (0 : Fin 1)) := by
  rw [mulf_apply, shapeCast_self, shapeCast_self, broadcastTo_a1_ab_apply]

/-- The bias-and-rectifier tile. -/
theorem tile_biasRelu (x0 : FVec Ideal ⟨2, ![A, B]⟩ .f32) (x1 : FVec Ideal ⟨2, ![1, B]⟩ .f32)
    (h0 : (⟨2, ![A, B]⟩ : Shape).ShapeCasts ⟨2, ![A, B]⟩) (h1 : (⟨2, ![1, B]⟩ : Shape).ShapeCasts ⟨2, ![1, B]⟩)
    (hb : (⟨2, ![1, B]⟩ : Shape).Broadcasts ⟨2, ![A, B]⟩) (p : Fin A) (q : Fin B) :
    maximumf (addf (shapeCast ⟨2, ![A, B]⟩ x0 h0) (broadcastTo ⟨2, ![A, B]⟩ (shapeCast ⟨2, ![1, B]⟩ x1 h1) hb))
        (broadcast ⟨2, ![A, B]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, broadcastTo_1b_ab_apply, broadcast_apply]
  rfl

/-- The affine tile: the left operand passes an identity cast before the format change. -/
theorem tile_linBias (wf : DotDims.WF ⟨2, ![A, K]⟩ ⟨2, ![K, B]⟩ ⟨2, ![A, B]⟩ [1] [0] [0] [1] [] [])
    (x0 : FVec Ideal ⟨2, ![A, K]⟩ .f32) (x1 : FVec Ideal ⟨2, ![K, B]⟩ .f32) (x2 : FVec Ideal ⟨2, ![1, B]⟩ .f32)
    (hlt : FTy.bf16.bits < FTy.f32.bits)
    (h0 : (⟨2, ![A, K]⟩ : Shape).ShapeCasts ⟨2, ![A, K]⟩)
    (h2 : (⟨2, ![1, B]⟩ : Shape).ShapeCasts ⟨2, ![1, B]⟩) (hb : (⟨2, ![1, B]⟩ : Shape).Broadcasts ⟨2, ![A, B]⟩)
    (p : Fin A) (q : Fin B) :
    addf (matmul (plain2 wf) none (truncf .bf16 (shapeCast ⟨2, ![A, K]⟩ x0 h0) hlt) (truncf .bf16 x1 hlt)
          (constant ⟨2, ![A, B]⟩ .f32 0x00000000#32))
        (broadcastTo ⟨2, ![A, B]⟩ (shapeCast ⟨2, ![1, B]⟩ x2 h2) hb) (ix2 p q)
      = (∑ k : Fin K, x0 (ix2 p k) * x1 (ix2 k q)) + x2 (ix2 (0 : Fin 1) q) := by
  rw [addf_apply, matmul2_zero_apply wf _ _ p q, shapeCast_self, shapeCast_self, broadcastTo_1b_ab_apply]
  rfl

/-- The projection tile when the left operand passes an identity cast first (the second layer's spelling). -/
theorem tile_linScale' (wf : DotDims.WF ⟨2, ![A, K]⟩ ⟨2, ![K, B]⟩ ⟨2, ![A, B]⟩ [1] [0] [0] [1] [] [])
    (x0 : FVec Ideal ⟨2, ![A, K]⟩ .f32) (x1 : FVec Ideal ⟨2, ![K, B]⟩ .f32) (x2 : FVec Ideal ⟨2, ![A, 1]⟩ .f32)
    (hlt : FTy.bf16.bits < FTy.f32.bits)
    (h0 : (⟨2, ![A, K]⟩ : Shape).ShapeCasts ⟨2, ![A, K]⟩)
    (h2 : (⟨2, ![A, 1]⟩ : Shape).ShapeCasts ⟨2, ![A, 1]⟩) (hb : (⟨2, ![A, 1]⟩ : Shape).Broadcasts ⟨2, ![A, B]⟩)
    (p : Fin A) (q : Fin B) :
    mulf (matmul (plain2 wf) none (truncf .bf16 (shapeCast ⟨2, ![A, K]⟩ x0 h0) hlt) (truncf .bf16 x1 hlt)
          (constant ⟨2, ![A, B]⟩ .f32 0x00000000#32))
        (broadcastTo ⟨2, ![A, B]⟩ (shapeCast ⟨2, ![A, 1]⟩ x2 h2) hb) (ix2 p q)
      = (∑ k : Fin K, x0 (ix2 p k) * x1 (ix2 k q)) * x2 (ix2 p (0 : Fin 1)) := by
  rw [mulf_apply, matmul2_zero_apply wf _ _ p q, shapeCast_self, shapeCast_self, broadcastTo_a1_ab_apply]
  rfl

end Cert.Gcn

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.Region0.lean ====
/-
  The first projection launch: 50 grid points, each staging 2000 rows of the [100000, 8] feature array, the whole
  [8, 32] weight matrix and the matching 2000 rows of the [100000, 1] column of per-row weights, and writing
  back the block whose entry (p, q) is the product of feature row p with weight column q, times the weight of
  row p.

  Block t of the three row-blocked windows is rows [2000 t, 2000 (t + 1)) and all columns, and the weight
  matrix's window is the whole matrix at every point, so the entry (p, q) of the block written at point t is the
  entry (2000 t + p, q) of ONE whole-array function of the arrays as the launch finds them: every row projected
  by the matrix, then scaled by its weight.  The 50 blocks tile the 100000 rows (row r lies in block r / 2000), so
  after the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg0

open scoped BigOperators
open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block the body leaves, at an entry: staged feature row p against staged weight column q, summed over the 8
    features, times the staged weight of row p. -/
theorem out_apply (x0 : Vec Ideal S2000x8 .f32) (x1 : Vec Ideal S8x32 .f32) (x2 : Vec Ideal S2000x1 .f32)
    (p : Fin 2000) (q : Fin 32) :
    out0_3 x0 x1 x2 (ix2 p q)
      = (∑ k : Fin 8, x0 (ix2 p k) * x1 (ix2 k q)) * x2 (ix2 p (0 : Fin 1)) := by
  unfold out0_3
  rw [View.canon_unit_zero hz]
  simp only [View.ld_unit_zero (S := S2000x8) hz, View.ld_unit_zero (S := S8x32) hz,
    View.ld_unit_zero (S := S2000x1) hz]
  unfold k0_pay1
  exact Cert.Gcn.tile_linScale Facts₀.dot_S2000x8_S8x32_S2000x32_1_0_0_1_n_n_wf x0 x1 x2 _ _ _ p q

/-- The four index maps over the grid: block t of the row-blocked windows is row block t, column block 0; the
    weight matrix's block is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- There are 50 grid points. -/
theorem lt_N (t : Fin cfg0.N) : t.val < 50 :=
  Nat.lt_of_lt_of_eq t.isLt (show cfg0.N = 50 from N_0)

/-- Row p of block t is row 2000 t + p of the array. -/
def rowOf (t : Fin cfg0.N) (p : Fin 2000) : Fin 100000 :=
  ⟨t.val * 2000 + p.val, by have := lt_N t; have := p.isLt; omega⟩

/-- Entry (p, k) of block t of the feature array is its entry (2000 t + p, k). -/
theorem emb0 (t : Fin cfg0.N) (p : Fin 2000) (k : Fin 8) :
    ((cfg0.win 0).blk t).view.emb (ix2 p k) = ix2 (rowOf t p) k := by
  obtain ⟨e0, e1, -, -, -, -, -, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 8 + 1 * k.val = k.val; omega

/-- Entry (k, q) of the staged weight matrix is its entry (k, q), at every point. -/
theorem emb1 (t : Fin cfg0.N) (k : Fin 8) (q : Fin 32) :
    ((cfg0.win 1).blk t).view.emb (ix2 k q) = ix2 k q := by
  obtain ⟨-, -, e0, e1, -, -, -, -⟩ := idx_facts t
  funext a; apply Fin.ext
  match a with
  | ⟨0, _⟩ => show win0_1.index t (0 : Fin 2) * 8 + 1 * k.val = k.val; omega
  | ⟨1, _⟩ => show win0_1.index t (1 : Fin 2) * 32 + 1 * q.val = q.val; omega

/-- Entry (p, 0) of block t of the weight column is its entry (2000 t + p, 0). -/
theorem emb2 (t : Fin cfg0.N) (p : Fin 2000) (q : Fin 1) :
    ((cfg0.win 2).blk t).view.emb (ix2 p q) = ix2 (rowOf t p) q := by
  obtain ⟨-, -, -, -, e0, e1, -, -⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 1 + 1 * q.val = q.val; omega

/-- Entry (p, q) of block t of the output array is its entry (2000 t + p, q). -/
theorem emb3 (t : Fin cfg0.N) (p : Fin 2000) (q : Fin 32) :
    ((cfg0.win 3).blk t).view.emb (ix2 p q) = ix2 (rowOf t p) q := by
  obtain ⟨-, -, -, -, -, -, e0, e1⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 32 + 1 * q.val = q.val; omega

/-- The staged block of the feature array, at an entry. -/
theorem iblk0_apply (c : Dev nD) (t : Fin cfg0.N) (p : Fin 2000) (k : Fin 8) :
    iblk0 V c 0 t (ix2 p k) = V c main_arg0 (ix2 (rowOf t p) k) := by
  unfold iblk0
  rw [View.read_apply, emb0]
  rfl

/-- The staged weight matrix, at an entry. -/
theorem iblk1_apply (c : Dev nD) (t : Fin cfg0.N) (k : Fin 8) (q : Fin 32) :
    iblk0 V c 1 t (ix2 k q) = V c main_arg3 (ix2 k q) := by
  unfold iblk0
  rw [View.read_apply, emb1]
  rfl

/-- The staged block of the weight column, at an entry. -/
theorem iblk2_apply (c : Dev nD) (t : Fin cfg0.N) (p : Fin 2000) (q : Fin 1) :
    iblk0 V c 2 t (ix2 p q) = V c main_v23 (ix2 (rowOf t p) q) := by
  unfold iblk0
  rw [View.read_apply, emb2]
  rfl

/-- What point t writes back is block t of the rows of the feature array projected by the weight matrix and each
    scaled by its weight. -/
theorem flushed_eq (c : Dev nD) (t : Fin cfg0.N) :
    (dat0 (F := Ideal) V c).flushed 3 t
      = ((cfg0.win 3).blk t).view.read (Elt Ideal)
          (Cert.Gcn.linScale (V c main_arg0) (V c main_arg3) (V c main_v23)) := by
  show (cfg0.win 3).cut (grid0.coords t) ((dat0 (F := Ideal) V c).after 3 t) = _
  rw [after0_3]
  funext y
  obtain ⟨p, q, rfl⟩ : ∃ (p : Fin 2000) (q : Fin 32), y = ix2 p q := ⟨y 0, y 1, eq_ix2 y⟩
  refine (out_apply (iblk0 V c 0 t) (iblk0 V c 1 t) (iblk0 V c 2 t) p q).trans ?_
  rw [iblk2_apply, View.read_apply, emb3, Cert.Gcn.linScale_apply]
  simp only [iblk0_apply, iblk1_apply]
  rfl

/-- Membership in block t of the output array, coordinate by coordinate. -/
theorem mem_blk (t : Fin cfg0.N) (i : S100000x32.Idx) :
    i ∈ ((cfg0.win 3).blk t).view.set ↔ ∀ a : Fin 2, win0_3.index t a * S2000x32.size a ≤ (i a).val ∧ (i a).val < win0_3.index t a * S2000x32.size a + S2000x32.size a := by
  show i ∈ ((View.whole main_v24).slice (win0_3.rect t)).set ↔ _
  rw [View.set_slice_whole, Rect.mem_set_unit]
  exact Iff.rfl

/-- Every entry of the output array lies in the block of the point its row names. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  refine ⟨⟨(i 0).val / 2000, by rw [show cfg0.N = 50 from N_0]; omega⟩, flush0_3 _, ?_⟩
  rw [mem_blk]
  obtain ⟨-, -, -, -, -, -, e0, e1⟩ := idx_facts ⟨(i 0).val / 2000, by rw [show cfg0.N = 50 from N_0]; omega⟩
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ (i 0).val ∧ (i 0).val < (i 0).val / 2000 * 2000 + 2000; omega
  | ⟨1, _⟩ => show win0_3.index _ (1 : Fin 2) * 32 ≤ (i 1).val ∧ (i 1).val < win0_3.index _ (1 : Fin 2) * 32 + 32; rw [e1]; omega

/-- After the launch the output array is every row of the feature array projected by the weight matrix and scaled
    by its weight. -/
theorem arr (c : Dev nD) :
    (dat0 (F := Ideal) V c).arrAt 3 cfg0.N = Cert.Gcn.linScale (V c main_arg0) (V c main_arg3) (V c main_v23) :=
  (dat0 (F := Ideal) V c).arrAt_eq_of_cover 3 _ (fun t _ => flushed_eq V c t) cover

end Cert.KernelIdeal.Reg0

end
-- ==== Proof.Region1.lean ====
/-
  The first row-scaling launch: 330 grid points, each staging 10000 rows of the gathered [3300000, 32] array
  and the matching 10000 rows of the [3300000, 1] column of per-row weights, and writing back the block whose
  entry (p, q) is the gathered entry times the weight of row p.

  Block t of each of the three row-blocked windows is rows [10000 t, 10000 (t + 1)) and all columns, so the entry
  (p, q) of the block written at point t is the entry (10000 t + p, q) of ONE whole-array function of the arrays
  as the launch finds them: every row times its weight.  The 330 blocks tile the 3300000 rows (row r lies in
  block r / 10000), so after the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block the body leaves, at an entry: the staged entry times the staged weight of its row. -/
theorem out_apply (x0 : Vec Ideal S10000x32 .f32) (x1 : Vec Ideal S10000x1 .f32) (p : Fin 10000) (q : Fin 32) :
    out1_2 x0 x1 (ix2 p q) = x0 (ix2 p q) * x1 (ix2 p (0 : Fin 1)) := by
  unfold out1_2
  rw [View.canon_unit_zero hz]
  simp only [View.ld_unit_zero (S := S10000x32) hz, View.ld_unit_zero (S := S10000x1) hz]
  unfold k1_pay1
  exact Cert.Gcn.tile_scaleRows x0 x1 _ _ _ p q

/-- The three index maps over the grid: block t of every window is row block t, column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- There are 330 grid points. -/
theorem lt_N (t : Fin cfg1.N) : t.val < 330 :=
  Nat.lt_of_lt_of_eq t.isLt (show cfg1.N = 330 from N_1)

/-- Row p of block t is row 10000 t + p of the array. -/
def rowOf (t : Fin cfg1.N) (p : Fin 10000) : Fin 3300000 :=
  ⟨t.val * 10000 + p.val, by have := lt_N t; have := p.isLt; omega⟩

/-- Entry (p, q) of block t of the gathered array is its entry (10000 t + p, q). -/
theorem emb0 (t : Fin cfg1.N) (p : Fin 10000) (q : Fin 32) :
    ((cfg1.win 0).blk t).view.emb (ix2 p q) = ix2 (rowOf t p) q := by
  obtain ⟨e0, e1, -, -, -, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 32 + 1 * q.val = q.val; omega

/-- Entry (p, 0) of block t of the weight column is its entry (10000 t + p, 0). -/
theorem emb1 (t : Fin cfg1.N) (p : Fin 10000) (q : Fin 1) :
    ((cfg1.win 1).blk t).view.emb (ix2 p q) = ix2 (rowOf t p) q := by
  obtain ⟨-, -, e0, e1, -, -⟩ := idx_facts t
  funext a; apply Fin.ext
  match a with
  | ⟨0, _⟩ => show win1_1.index t (0 : Fin 2) * 10000 + 1 * p.val = t.val * 10000 + p.val; omega
  | ⟨1, _⟩ => show win1_1.index t (1 : Fin 2) * 1 + 1 * q.val = q.val; omega

/-- Entry (p, q) of block t of the output array is its entry (10000 t + p, q). -/
theorem emb2 (t : Fin cfg1.N) (p : Fin 10000) (q : Fin 32) :
    ((cfg1.win 2).blk t).view.emb (ix2 p q) = ix2 (rowOf t p) q := by
  obtain ⟨-, -, -, -, e0, e1⟩ := idx_facts t
  funext a; apply Fin.ext
  match a with
  | ⟨0, _⟩ => show win1_2.index t (0 : Fin 2) * 10000 + 1 * p.val = t.val * 10000 + p.val; omega
  | ⟨1, _⟩ => show win1_2.index t (1 : Fin 2) * 32 + 1 * q.val = q.val; omega

/-- The staged block of the gathered array, at an entry. -/
theorem iblk0_apply (c : Dev nD) (t : Fin cfg1.N) (p : Fin 10000) (q : Fin 32) :
    iblk1 V c 0 t (ix2 p q) = V c main_v31 (ix2 (rowOf t p) q) := by
  unfold iblk1
  rw [View.read_apply, emb0]
  rfl

/-- The staged block of the weight column, at an entry. -/
theorem iblk1_apply (c : Dev nD) (t : Fin cfg1.N) (p : Fin 10000) (q : Fin 1) :
    iblk1 V c 1 t (ix2 p q) = V c main_v22 (ix2 (rowOf t p) q) := by
  unfold iblk1
  rw [View.read_apply, emb1]
  rfl

/-- What point t writes back is block t of the rows of the gathered array each times its weight. -/
theorem flushed_eq (c : Dev nD) (t : Fin cfg1.N) :
    (dat1 (F := Ideal) V c).flushed 2 t
      = ((cfg1.win 2).blk t).view.read (Elt Ideal) (Cert.Gcn.scaleRows (V c main_v31) (V c main_v22)) := by
  show (cfg1.win 2).cut (grid1.coords t) ((dat1 (F := Ideal) V c).after 2 t) = _
  rw [after1_2]
  funext y
  obtain ⟨p, q, rfl⟩ : ∃ (p : Fin 10000) (q : Fin 32), y = ix2 p q := ⟨y 0, y 1, eq_ix2 y⟩
  refine (out_apply (iblk1 V c 0 t) (iblk1 V c 1 t) p q).trans ?_
  rw [iblk0_apply, iblk1_apply, View.read_apply, emb2, Cert.Gcn.scaleRows_apply]
  rfl

/-- Membership in block t of the output array, coordinate by coordinate. -/
theorem mem_blk (t : Fin cfg1.N) (i : S3300000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v32).slice (win1_2.rect t)).set ↔ _
  rw [View.set_slice_whole, Rect.mem_set_unit]
  exact Iff.rfl

/-- Every entry of the output array lies in the block of the point its row names. -/
theorem cover (i : S3300000x32.Idx) :
    ∃ t : Fin cfg1.N, (cfg1.win 2).flush t = true ∧ i ∈ ((cfg1.win 2).blk t).view.set := by
  have hi0 : (i 0).val < 3300000 := (i 0).isLt
  have hi1 : (i 1).val < 32 := (i 1).isLt
  refine ⟨⟨(i 0).val / 10000, by rw [show cfg1.N = 330 from N_1]; omega⟩, flush1_2 _, ?_⟩
  rw [mem_blk]
  obtain ⟨-, -, -, -, e0, e1⟩ := idx_facts ⟨(i 0).val / 10000, by rw [show cfg1.N = 330 from N_1]; omega⟩
  intro a
  match a with
  | ⟨0, _⟩ => show win1_2.index _ (0 : Fin 2) * 10000 ≤ (i 0).val ∧ (i 0).val < win1_2.index _ (0 : Fin 2) * 10000 + 10000; rw [e0]; show (i 0).val / 10000 * 10000 ≤ (i 0).val ∧ (i 0).val < (i 0).val / 10000 * 10000 + 10000; omega
  | ⟨1, _⟩ => show win1_2.index _ (1 : Fin 2) * 32 ≤ (i 1).val ∧ (i 1).val < win1_2.index _ (1 : Fin 2) * 32 + 32; rw [e1]; omega

/-- After the launch the output array is every row of the gathered array times its weight. -/
theorem arr (c : Dev nD) :
    (dat1 (F := Ideal) V c).arrAt 2 cfg1.N = Cert.Gcn.scaleRows (V c main_v31) (V c main_v22) :=
  (dat1 (F := Ideal) V c).arrAt_eq_of_cover 2 _ (fun t _ => flushed_eq V c t) cover

end Cert.KernelIdeal.Reg1

end
-- ==== Proof.Region2.lean ====
/-
  The first bias-and-rectifier launch: 50 grid points, each staging 2000 rows of the aggregated [100000, 32]
  array and the whole [1, 32] bias row, and writing back the block whose entry (p, q) is the maximum of the
  staged entry plus the bias of column q, and zero.

  Block t of the two row-blocked windows is rows [2000 t, 2000 (t + 1)) and all columns, and the bias row's
  window is the whole row at every point, so the entry (p, q) of the block written at point t is the entry
  (2000 t + p, q) of ONE whole-array function of the arrays as the launch finds them: the bias row added to
  every row, then the rectifier.  The 50 blocks tile the 100000 rows (row r lies in block r / 2000), so after
  the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block the body leaves, at an entry: the staged entry plus the bias of its column, or zero if that is
    larger. -/
theorem out_apply (x0 : Vec Ideal S2000x32 .f32) (x1 : Vec Ideal S1x32 .f32) (p : Fin 2000) (q : Fin 32) :
    out2_2 x0 x1 (ix2 p q)
      = max (x0 (ix2 p q) + x1 (ix2 (0 : Fin 1) q)) (Ideal.ofBits .f32 0x00000000#32) := by
  unfold out2_2
  rw [View.canon_unit_zero hz]
  simp only [View.ld_unit_zero (S := S2000x32) hz, View.ld_unit_zero (S := S1x32) hz]
  unfold k2_pay1
  exact Cert.Gcn.tile_biasRelu x0 x1 _ _ _ p q

/-- The three index maps over the grid: block t of the row-blocked windows is row block t, column block 0; the
    bias row's block is always the whole row. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- There are 50 grid points. -/
theorem lt_N (t : Fin cfg2.N) : t.val < 50 :=
  Nat.lt_of_lt_of_eq t.isLt (show cfg2.N = 50 from N_2)

/-- Row p of block t is row 2000 t + p of the array. -/
def rowOf (t : Fin cfg2.N) (p : Fin 2000) : Fin 100000 :=
  ⟨t.val * 2000 + p.val, by have := lt_N t; have := p.isLt; omega⟩

/-- Entry (p, q) of block t of the aggregated array is its entry (2000 t + p, q). -/
theorem emb0 (t : Fin cfg2.N) (p : Fin 2000) (q : Fin 32) :
    ((cfg2.win 0).blk t).view.emb (ix2 p q) = ix2 (rowOf t p) q := by
  obtain ⟨e0, e1, -, -, -, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 32 + 1 * q.val = q.val; omega

/-- Entry (p, q) of the staged bias row is its entry (p, q), at every point. -/
theorem emb1 (t : Fin cfg2.N) (p : Fin 1) (q : Fin 32) :
    ((cfg2.win 1).blk t).view.emb (ix2 p q) = ix2 p q := by
  obtain ⟨-, -, e0, e1, -, -⟩ := idx_facts t
  funext a; apply Fin.ext
  match a with
  | ⟨0, _⟩ => show win2_1.index t (0 : Fin 2) * 1 + 1 * p.val = p.val; omega
  | ⟨1, _⟩ => show win2_1.index t (1 : Fin 2) * 32 + 1 * q.val = q.val; omega

/-- Entry (p, q) of block t of the output array is its entry (2000 t + p, q). -/
theorem emb2 (t : Fin cfg2.N) (p : Fin 2000) (q : Fin 32) :
    ((cfg2.win 2).blk t).view.emb (ix2 p q) = ix2 (rowOf t p) q := by
  obtain ⟨-, -, -, -, e0, e1⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 32 + 1 * q.val = q.val; omega

/-- The staged block of the aggregated array, at an entry. -/
theorem iblk0_apply (c : Dev nD) (t : Fin cfg2.N) (p : Fin 2000) (q : Fin 32) :
    iblk2 V c 0 t (ix2 p q) = V c main_v35 (ix2 (rowOf t p) q) := by
  unfold iblk2
  rw [View.read_apply, emb0]
  rfl

/-- The staged bias row, at an entry. -/
theorem iblk1_apply (c : Dev nD) (t : Fin cfg2.N) (p : Fin 1) (q : Fin 32) :
    iblk2 V c 1 t (ix2 p q) = V c main_v36 (ix2 p q) := by
  unfold iblk2
  rw [View.read_apply, emb1]
  rfl

/-- What point t writes back is block t of the aggregated array with the bias row added to every row and the
    rectifier applied. -/
theorem flushed_eq (c : Dev nD) (t : Fin cfg2.N) :
    (dat2 (F := Ideal) V c).flushed 2 t
      = ((cfg2.win 2).blk t).view.read (Elt Ideal) (Cert.Gcn.biasRelu (V c main_v35) (V c main_v36)) := by
  show (cfg2.win 2).cut (grid2.coords t) ((dat2 (F := Ideal) V c).after 2 t) = _
  rw [after2_2]
  funext y
  obtain ⟨p, q, rfl⟩ : ∃ (p : Fin 2000) (q : Fin 32), y = ix2 p q := ⟨y 0, y 1, eq_ix2 y⟩
  refine (out_apply (iblk2 V c 0 t) (iblk2 V c 1 t) p q).trans ?_
  rw [iblk0_apply, iblk1_apply, View.read_apply, emb2, Cert.Gcn.biasRelu_apply]
  rfl

/-- Membership in block t of the output array, coordinate by coordinate. -/
theorem mem_blk (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v37).slice (win2_2.rect t)).set ↔ _
  rw [View.set_slice_whole, Rect.mem_set_unit]
  exact Iff.rfl

/-- Every entry of the output array lies in the block of the point its row names. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  refine ⟨⟨(i 0).val / 2000, by rw [show cfg2.N = 50 from N_2]; omega⟩, flush2_2 _, ?_⟩
  rw [mem_blk]
  obtain ⟨-, -, -, -, e0, e1⟩ := idx_facts ⟨(i 0).val / 2000, by rw [show cfg2.N = 50 from N_2]; omega⟩
  intro a
  match a with
  | ⟨0, _⟩ => show win2_2.index _ (0 : Fin 2) * 2000 ≤ (i 0).val ∧ (i 0).val < win2_2.index _ (0 : Fin 2) * 2000 + 2000; rw [e0]; show (i 0).val / 2000 * 2000 ≤ (i 0).val ∧ (i 0).val < (i 0).val / 2000 * 2000 + 2000; omega
  | ⟨1, _⟩ => show win2_2.index _ (1 : Fin 2) * 32 ≤ (i 1).val ∧ (i 1).val < win2_2.index _ (1 : Fin 2) * 32 + 32; rw [e1]; omega

/-- After the launch the output array is the aggregated array with the bias row added to every row and the
    rectifier applied. -/
theorem arr (c : Dev nD) :
    (dat2 (F := Ideal) V c).arrAt 2 cfg2.N = Cert.Gcn.biasRelu (V c main_v35) (V c main_v36) :=
  (dat2 (F := Ideal) V c).arrAt_eq_of_cover 2 _ (fun t _ => flushed_eq V c t) cover

end Cert.KernelIdeal.Reg2

end
-- ==== Proof.Region3.lean ====
/-
  The second projection launch: 50 grid points, each staging 2000 rows of the [100000, 32] hidden array, the whole
  [32, 32] weight matrix and the matching 2000 rows of the [100000, 1] column of per-row weights, and writing
  back the block whose entry (p, q) is the product of hidden row p with weight column q, times the weight of
  row p.

  Block t of the three row-blocked windows is rows [2000 t, 2000 (t + 1)) and all columns, and the weight
  matrix's window is the whole matrix at every point, so the entry (p, q) of the block written at point t is the
  entry (2000 t + p, q) of ONE whole-array function of the arrays as the launch finds them: every row projected
  by the matrix, then scaled by its weight.  The 50 blocks tile the 100000 rows (row r lies in block r / 2000), so
  after the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg3

open scoped BigOperators
open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block the body leaves, at an entry: staged hidden row p against staged weight column q, summed over the 32
    hidden units, times the staged weight of row p. -/
theorem out_apply (x0 : Vec Ideal S2000x32 .f32) (x1 : Vec Ideal S32x32 .f32) (x2 : Vec Ideal S2000x1 .f32)
    (p : Fin 2000) (q : Fin 32) :
    out3_3 x0 x1 x2 (ix2 p q)
      = (∑ k : Fin 32, x0 (ix2 p k) * x1 (ix2 k q)) * x2 (ix2 p (0 : Fin 1)) := by
  unfold out3_3
  rw [View.canon_unit_zero hz]
  simp only [View.ld_unit_zero (S := S2000x32) hz, View.ld_unit_zero (S := S32x32) hz,
    View.ld_unit_zero (S := S2000x1) hz]
  unfold k3_pay1
  exact Cert.Gcn.tile_linScale' Facts₀.dot_S2000x32_S32x32_S2000x32_1_0_0_1_n_n_wf x0 x1 x2 _ _ _ _ p q

/-- The four index maps over the grid: block t of the row-blocked windows is row block t, column block 0; the
    weight matrix's block is always the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- There are 50 grid points. -/
theorem lt_N (t : Fin cfg3.N) : t.val < 50 :=
  Nat.lt_of_lt_of_eq t.isLt (show cfg3.N = 50 from N_3)

/-- Row p of block t is row 2000 t + p of the array. -/
def rowOf (t : Fin cfg3.N) (p : Fin 2000) : Fin 100000 :=
  ⟨t.val * 2000 + p.val, by have := lt_N t; have := p.isLt; omega⟩

/-- Entry (p, k) of block t of the hidden array is its entry (2000 t + p, k). -/
theorem emb0 (t : Fin cfg3.N) (p : Fin 2000) (k : Fin 32) :
    ((cfg3.win 0).blk t).view.emb (ix2 p k) = ix2 (rowOf t p) k := by
  obtain ⟨e0, e1, -, -, -, -, -, -⟩ := idx_facts t
  funext a; apply Fin.ext
  match a with
  | ⟨0, _⟩ => show win3_0.index t (0 : Fin 2) * 2000 + 1 * p.val = t.val * 2000 + p.val; omega
  | ⟨1, _⟩ => show win3_0.index t (1 : Fin 2) * 32 + 1 * k.val = k.val; omega

/-- Entry (k, q) of the staged weight matrix is its entry (k, q), at every point. -/
theorem emb1 (t : Fin cfg3.N) (k : Fin 32) (q : Fin 32) :
    ((cfg3.win 1).blk t).view.emb (ix2 k q) = ix2 k q := by
  obtain ⟨-, -, e0, e1, -, -, -, -⟩ := idx_facts t
  funext a; apply Fin.ext
  match a with
  | ⟨0, _⟩ => show win3_1.index t (0 : Fin 2) * 32 + 1 * k.val = k.val; omega
  | ⟨1, _⟩ => show win3_1.index t (1 : Fin 2) * 32 + 1 * q.val = q.val; omega

/-- Entry (p, 0) of block t of the weight column is its entry (2000 t + p, 0). -/
theorem emb2 (t : Fin cfg3.N) (p : Fin 2000) (q : Fin 1) :
    ((cfg3.win 2).blk t).view.emb (ix2 p q) = ix2 (rowOf t p) q := by
  obtain ⟨-, -, -, -, e0, e1, -, -⟩ := idx_facts t
  funext a; apply Fin.ext
  match a with
  | ⟨0, _⟩ => show win3_2.index t (0 : Fin 2) * 2000 + 1 * p.val = t.val * 2000 + p.val; omega
  | ⟨1, _⟩ => show win3_2.index t (1 : Fin 2) * 1 + 1 * q.val = q.val; omega

/-- Entry (p, q) of block t of the output array is its entry (2000 t + p, q). -/
theorem emb3 (t : Fin cfg3.N) (p : Fin 2000) (q : Fin 32) :
    ((cfg3.win 3).blk t).view.emb (ix2 p q) = ix2 (rowOf t p) q := by
  obtain ⟨-, -, -, -, -, -, e0, e1⟩ := idx_facts t
  funext a; apply Fin.ext
  match a with
  | ⟨0, _⟩ => show win3_3.index t (0 : Fin 2) * 2000 + 1 * p.val = t.val * 2000 + p.val; omega
  | ⟨1, _⟩ => show win3_3.index t (1 : Fin 2) * 32 + 1 * q.val = q.val; omega

/-- The staged block of the hidden array, at an entry. -/
theorem iblk0_apply (c : Dev nD) (t : Fin cfg3.N) (p : Fin 2000) (k : Fin 32) :
    iblk3 V c 0 t (ix2 p k) = V c main_v37 (ix2 (rowOf t p) k) := by
  unfold iblk3
  rw [View.read_apply, emb0]
  rfl

/-- The staged weight matrix, at an entry. -/
theorem iblk1_apply (c : Dev nD) (t : Fin cfg3.N) (k : Fin 32) (q : Fin 32) :
    iblk3 V c 1 t (ix2 k q) = V c main_arg5 (ix2 k q) := by
  unfold iblk3
  rw [View.read_apply, emb1]
  rfl

/-- The staged block of the weight column, at an entry. -/
theorem iblk2_apply (c : Dev nD) (t : Fin cfg3.N) (p : Fin 2000) (q : Fin 1) :
    iblk3 V c 2 t (ix2 p q) = V c main_v38 (ix2 (rowOf t p) q) := by
  unfold iblk3
  rw [View.read_apply, emb2]
  rfl

/-- What point t writes back is block t of the rows of the hidden array projected by the weight matrix and each
    scaled by its weight. -/
theorem flushed_eq (c : Dev nD) (t : Fin cfg3.N) :
    (dat3 (F := Ideal) V c).flushed 3 t
      = ((cfg3.win 3).blk t).view.read (Elt Ideal)
          (Cert.Gcn.linScale (V c main_v37) (V c main_arg5) (V c main_v38)) := by
  show (cfg3.win 3).cut (grid3.coords t) ((dat3 (F := Ideal) V c).after 3 t) = _
  rw [after3_3]
  funext y
  obtain ⟨p, q, rfl⟩ : ∃ (p : Fin 2000) (q : Fin 32), y = ix2 p q := ⟨y 0, y 1, eq_ix2 y⟩
  refine (out_apply (iblk3 V c 0 t) (iblk3 V c 1 t) (iblk3 V c 2 t) p q).trans ?_
  rw [iblk2_apply, View.read_apply, emb3, Cert.Gcn.linScale_apply]
  simp only [iblk0_apply, iblk1_apply]
  rfl

/-- Membership in block t of the output array, coordinate by coordinate. -/
theorem mem_blk (t : Fin cfg3.N) (i : S100000x32.Idx) :
    i ∈ ((cfg3.win 3).blk t).view.set ↔ ∀ a : Fin 2, win3_3.index t a * S2000x32.size a ≤ (i a).val ∧ (i a).val < win3_3.index t a * S2000x32.size a + S2000x32.size a := by
  show i ∈ ((View.whole main_v39).slice (win3_3.rect t)).set ↔ _
  rw [View.set_slice_whole, Rect.mem_set_unit]
  exact Iff.rfl

/-- Every entry of the output array lies in the block of the point its row names. -/
theorem cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  refine ⟨⟨(i 0).val / 2000, by rw [show cfg3.N = 50 from N_3]; omega⟩, flush3_3 _, ?_⟩
  rw [mem_blk]
  obtain ⟨-, -, -, -, -, -, e0, e1⟩ := idx_facts ⟨(i 0).val / 2000, by rw [show cfg3.N = 50 from N_3]; omega⟩
  intro a
  match a with
  | ⟨0, _⟩ => show win3_3.index _ (0 : Fin 2) * 2000 ≤ (i 0).val ∧ (i 0).val < win3_3.index _ (0 : Fin 2) * 2000 + 2000; rw [e0]; show (i 0).val / 2000 * 2000 ≤ (i 0).val ∧ (i 0).val < (i 0).val / 2000 * 2000 + 2000; omega
  | ⟨1, _⟩ => show win3_3.index _ (1 : Fin 2) * 32 ≤ (i 1).val ∧ (i 1).val < win3_3.index _ (1 : Fin 2) * 32 + 32; rw [e1]; omega

/-- After the launch the output array is every row of the hidden array projected by the weight matrix and scaled
    by its weight. -/
theorem arr (c : Dev nD) :
    (dat3 (F := Ideal) V c).arrAt 3 cfg3.N = Cert.Gcn.linScale (V c main_v37) (V c main_arg5) (V c main_v38) :=
  (dat3 (F := Ideal) V c).arrAt_eq_of_cover 3 _ (fun t _ => flushed_eq V c t) cover

end Cert.KernelIdeal.Reg3

end
-- ==== Proof.Region4.lean ====
/-
  The second row-scaling launch: 330 grid points, each staging 10000 rows of the second layer's gathered [3300000, 32] array
  and the matching 10000 rows of the [3300000, 1] column of per-row weights, and writing back the block whose
  entry (p, q) is the gathered entry times the weight of row p.

  Block t of each of the three row-blocked windows is rows [10000 t, 10000 (t + 1)) and all columns, so the entry
  (p, q) of the block written at point t is the entry (10000 t + p, q) of ONE whole-array function of the arrays
  as the launch finds them: every row times its weight.  The 330 blocks tile the 3300000 rows (row r lies in
  block r / 10000), so after the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block the body leaves, at an entry: the staged entry times the staged weight of its row. -/
theorem out_apply (x0 : Vec Ideal S10000x32 .f32) (x1 : Vec Ideal S10000x1 .f32) (p : Fin 10000) (q : Fin 32) :
    out4_2 x0 x1 (ix2 p q) = x0 (ix2 p q) * x1 (ix2 p (0 : Fin 1)) := by
  unfold out4_2
  rw [View.canon_unit_zero hz]
  simp only [View.ld_unit_zero (S := S10000x32) hz, View.ld_unit_zero (S := S10000x1) hz]
  unfold k4_pay1
  exact Cert.Gcn.tile_scaleRows x0 x1 _ _ _ p q

/-- The three index maps over the grid: block t of every window is row block t, column block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- There are 330 grid points. -/
theorem lt_N (t : Fin cfg4.N) : t.val < 330 :=
  Nat.lt_of_lt_of_eq t.isLt (show cfg4.N = 330 from N_4)

/-- Row p of block t is row 10000 t + p of the array. -/
def rowOf (t : Fin cfg4.N) (p : Fin 10000) : Fin 3300000 :=
  ⟨t.val * 10000 + p.val, by have := lt_N t; have := p.isLt; omega⟩

/-- Entry (p, q) of block t of the gathered array is its entry (10000 t + p, q). -/
theorem emb0 (t : Fin cfg4.N) (p : Fin 10000) (q : Fin 32) :
    ((cfg4.win 0).blk t).view.emb (ix2 p q) = ix2 (rowOf t p) q := by
  obtain ⟨e0, e1, -, -, -, -⟩ := idx_facts t
  funext a; apply Fin.ext
  match a with
  | ⟨0, _⟩ => show win4_0.index t (0 : Fin 2) * 10000 + 1 * p.val = t.val * 10000 + p.val; omega
  | ⟨1, _⟩ => show win4_0.index t (1 : Fin 2) * 32 + 1 * q.val = q.val; omega

/-- Entry (p, 0) of block t of the weight column is its entry (10000 t + p, 0). -/
theorem emb1 (t : Fin cfg4.N) (p : Fin 10000) (q : Fin 1) :
    ((cfg4.win 1).blk t).view.emb (ix2 p q) = ix2 (rowOf t p) q := by
  obtain ⟨-, -, e0, e1, -, -⟩ := idx_facts t
  funext a; apply Fin.ext
  match a with
  | ⟨0, _⟩ => show win4_1.index t (0 : Fin 2) * 10000 + 1 * p.val = t.val * 10000 + p.val; omega
  | ⟨1, _⟩ => show win4_1.index t (1 : Fin 2) * 1 + 1 * q.val = q.val; omega

/-- Entry (p, q) of block t of the output array is its entry (10000 t + p, q). -/
theorem emb2 (t : Fin cfg4.N) (p : Fin 10000) (q : Fin 32) :
    ((cfg4.win 2).blk t).view.emb (ix2 p q) = ix2 (rowOf t p) q := by
  obtain ⟨-, -, -, -, e0, e1⟩ := idx_facts t
  funext a; apply Fin.ext
  match a with
  | ⟨0, _⟩ => show win4_2.index t (0 : Fin 2) * 10000 + 1 * p.val = t.val * 10000 + p.val; omega
  | ⟨1, _⟩ => show win4_2.index t (1 : Fin 2) * 32 + 1 * q.val = q.val; omega

/-- The staged block of the gathered array, at an entry. -/
theorem iblk0_apply (c : Dev nD) (t : Fin cfg4.N) (p : Fin 10000) (q : Fin 32) :
    iblk4 V c 0 t (ix2 p q) = V c main_v46 (ix2 (rowOf t p) q) := by
  unfold iblk4
  rw [View.read_apply, emb0]
  rfl

/-- The staged block of the weight column, at an entry. -/
theorem iblk1_apply (c : Dev nD) (t : Fin cfg4.N) (p : Fin 10000) (q : Fin 1) :
    iblk4 V c 1 t (ix2 p q) = V c main_v22 (ix2 (rowOf t p) q) := by
  unfold iblk4
  rw [View.read_apply, emb1]
  rfl

/-- What point t writes back is block t of the rows of the gathered array each times its weight. -/
theorem flushed_eq (c : Dev nD) (t : Fin cfg4.N) :
    (dat4 (F := Ideal) V c).flushed 2 t
      = ((cfg4.win 2).blk t).view.read (Elt Ideal) (Cert.Gcn.scaleRows (V c main_v46) (V c main_v22)) := by
  show (cfg4.win 2).cut (grid4.coords t) ((dat4 (F := Ideal) V c).after 2 t) = _
  rw [after4_2]
  funext y
  obtain ⟨p, q, rfl⟩ : ∃ (p : Fin 10000) (q : Fin 32), y = ix2 p q := ⟨y 0, y 1, eq_ix2 y⟩
  refine (out_apply (iblk4 V c 0 t) (iblk4 V c 1 t) p q).trans ?_
  rw [iblk0_apply, iblk1_apply, View.read_apply, emb2, Cert.Gcn.scaleRows_apply]
  rfl

/-- Membership in block t of the output array, coordinate by coordinate. -/
theorem mem_blk (t : Fin cfg4.N) (i : S3300000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v47).slice (win4_2.rect t)).set ↔ _
  rw [View.set_slice_whole, Rect.mem_set_unit]
  exact Iff.rfl

/-- Every entry of the output array lies in the block of the point its row names. -/
theorem cover (i : S3300000x32.Idx) :
    ∃ t : Fin cfg4.N, (cfg4.win 2).flush t = true ∧ i ∈ ((cfg4.win 2).blk t).view.set := by
  have hi0 : (i 0).val < 3300000 := (i 0).isLt
  have hi1 : (i 1).val < 32 := (i 1).isLt
  refine ⟨⟨(i 0).val / 10000, by rw [show cfg4.N = 330 from N_4]; omega⟩, flush4_2 _, ?_⟩
  rw [mem_blk]
  obtain ⟨-, -, -, -, e0, e1⟩ := idx_facts ⟨(i 0).val / 10000, by rw [show cfg4.N = 330 from N_4]; omega⟩
  intro a
  match a with
  | ⟨0, _⟩ => show win4_2.index _ (0 : Fin 2) * 10000 ≤ (i 0).val ∧ (i 0).val < win4_2.index _ (0 : Fin 2) * 10000 + 10000; rw [e0]; show (i 0).val / 10000 * 10000 ≤ (i 0).val ∧ (i 0).val < (i 0).val / 10000 * 10000 + 10000; omega
  | ⟨1, _⟩ => show win4_2.index _ (1 : Fin 2) * 32 ≤ (i 1).val ∧ (i 1).val < win4_2.index _ (1 : Fin 2) * 32 + 32; rw [e1]; omega

/-- After the launch the output array is every row of the gathered array times its weight. -/
theorem arr (c : Dev nD) :
    (dat4 (F := Ideal) V c).arrAt 2 cfg4.N = Cert.Gcn.scaleRows (V c main_v46) (V c main_v22) :=
  (dat4 (F := Ideal) V c).arrAt_eq_of_cover 2 _ (fun t _ => flushed_eq V c t) cover

end Cert.KernelIdeal.Reg4

end
-- ==== Proof.Region5.lean ====
/-
  The second bias-and-rectifier launch: 50 grid points, each staging 2000 rows of the second layer's aggregated
  [100000, 32] array and the whole [1, 32] bias row, and writing back the block whose entry (p, q) is the maximum of the
  staged entry plus the bias of column q, and zero.

  Block t of the two row-blocked windows is rows [2000 t, 2000 (t + 1)) and all columns, and the bias row's
  window is the whole row at every point, so the entry (p, q) of the block written at point t is the entry
  (2000 t + p, q) of ONE whole-array function of the arrays as the launch finds them: the bias row added to
  every row, then the rectifier.  The 50 blocks tile the 100000 rows (row r lies in block r / 2000), so after
  the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block the body leaves, at an entry: the staged entry plus the bias of its column, or zero if that is
    larger. -/
theorem out_apply (x0 : Vec Ideal S2000x32 .f32) (x1 : Vec Ideal S1x32 .f32) (p : Fin 2000) (q : Fin 32) :
    out5_2 x0 x1 (ix2 p q)
      = max (x0 (ix2 p q) + x1 (ix2 (0 : Fin 1) q)) (Ideal.ofBits .f32 0x00000000#32) := by
  unfold out5_2
  rw [View.canon_unit_zero hz]
  simp only [View.ld_unit_zero (S := S2000x32) hz, View.ld_unit_zero (S := S1x32) hz]
  unfold k5_pay1
  exact Cert.Gcn.tile_biasRelu x0 x1 _ _ _ p q

/-- The three index maps over the grid: block t of the row-blocked windows is row block t, column block 0; the
    bias row's block is always the whole row. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- There are 50 grid points. -/
theorem lt_N (t : Fin cfg5.N) : t.val < 50 :=
  Nat.lt_of_lt_of_eq t.isLt (show cfg5.N = 50 from N_5)

/-- Row p of block t is row 2000 t + p of the array. -/
def rowOf (t : Fin cfg5.N) (p : Fin 2000) : Fin 100000 :=
  ⟨t.val * 2000 + p.val, by have := lt_N t; have := p.isLt; omega⟩

/-- Entry (p, q) of block t of the aggregated array is its entry (2000 t + p, q). -/
theorem emb0 (t : Fin cfg5.N) (p : Fin 2000) (q : Fin 32) :
    ((cfg5.win 0).blk t).view.emb (ix2 p q) = ix2 (rowOf t p) q := by
  obtain ⟨e0, e1, -, -, -, -⟩ := idx_facts t
  funext a; apply Fin.ext
  match a with
  | ⟨0, _⟩ => show win5_0.index t (0 : Fin 2) * 2000 + 1 * p.val = t.val * 2000 + p.val; omega
  | ⟨1, _⟩ => show win5_0.index t (1 : Fin 2) * 32 + 1 * q.val = q.val; omega

/-- Entry (p, q) of the staged bias row is its entry (p, q), at every point. -/
theorem emb1 (t : Fin cfg5.N) (p : Fin 1) (q : Fin 32) :
    ((cfg5.win 1).blk t).view.emb (ix2 p q) = ix2 p q := by
  obtain ⟨-, -, e0, e1, -, -⟩ := idx_facts t
  funext a; apply Fin.ext
  match a with
  | ⟨0, _⟩ => show win5_1.index t (0 : Fin 2) * 1 + 1 * p.val = p.val; omega
  | ⟨1, _⟩ => show win5_1.index t (1 : Fin 2) * 32 + 1 * q.val = q.val; omega

/-- Entry (p, q) of block t of the output array is its entry (2000 t + p, q). -/
theorem emb2 (t : Fin cfg5.N) (p : Fin 2000) (q : Fin 32) :
    ((cfg5.win 2).blk t).view.emb (ix2 p q) = ix2 (rowOf t p) q := by
  obtain ⟨-, -, -, -, e0, e1⟩ := idx_facts t
  funext a; apply Fin.ext
  match a with
  | ⟨0, _⟩ => show win5_2.index t (0 : Fin 2) * 2000 + 1 * p.val = t.val * 2000 + p.val; omega
  | ⟨1, _⟩ => show win5_2.index t (1 : Fin 2) * 32 + 1 * q.val = q.val; omega

/-- The staged block of the aggregated array, at an entry. -/
theorem iblk0_apply (c : Dev nD) (t : Fin cfg5.N) (p : Fin 2000) (q : Fin 32) :
    iblk5 V c 0 t (ix2 p q) = V c main_v50 (ix2 (rowOf t p) q) := by
  unfold iblk5
  rw [View.read_apply, emb0]
  rfl

/-- The staged bias row, at an entry. -/
theorem iblk1_apply (c : Dev nD) (t : Fin cfg5.N) (p : Fin 1) (q : Fin 32) :
    iblk5 V c 1 t (ix2 p q) = V c main_v51 (ix2 p q) := by
  unfold iblk5
  rw [View.read_apply, emb1]
  rfl

/-- What point t writes back is block t of the aggregated array with the bias row added to every row and the
    rectifier applied. -/
theorem flushed_eq (c : Dev nD) (t : Fin cfg5.N) :
    (dat5 (F := Ideal) V c).flushed 2 t
      = ((cfg5.win 2).blk t).view.read (Elt Ideal) (Cert.Gcn.biasRelu (V c main_v50) (V c main_v51)) := by
  show (cfg5.win 2).cut (grid5.coords t) ((dat5 (F := Ideal) V c).after 2 t) = _
  rw [after5_2]
  funext y
  obtain ⟨p, q, rfl⟩ : ∃ (p : Fin 2000) (q : Fin 32), y = ix2 p q := ⟨y 0, y 1, eq_ix2 y⟩
  refine (out_apply (iblk5 V c 0 t) (iblk5 V c 1 t) p q).trans ?_
  rw [iblk0_apply, iblk1_apply, View.read_apply, emb2, Cert.Gcn.biasRelu_apply]
  rfl

/-- Membership in block t of the output array, coordinate by coordinate. -/
theorem mem_blk (t : Fin cfg5.N) (i : S100000x32.Idx) :
    i ∈ ((cfg5.win 2).blk t).view.set ↔ ∀ a : Fin 2, win5_2.index t a * S2000x32.size a ≤ (i a).val ∧ (i a).val < win5_2.index t a * S2000x32.size a + S2000x32.size a := by
  show i ∈ ((View.whole main_v52).slice (win5_2.rect t)).set ↔ _
  rw [View.set_slice_whole, Rect.mem_set_unit]
  exact Iff.rfl

/-- Every entry of the output array lies in the block of the point its row names. -/
theorem cover (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  refine ⟨⟨(i 0).val / 2000, by rw [show cfg5.N = 50 from N_5]; omega⟩, flush5_2 _, ?_⟩
  rw [mem_blk]
  obtain ⟨-, -, -, -, e0, e1⟩ := idx_facts ⟨(i 0).val / 2000, by rw [show cfg5.N = 50 from N_5]; omega⟩
  intro a
  match a with
  | ⟨0, _⟩ => show win5_2.index _ (0 : Fin 2) * 2000 ≤ (i 0).val ∧ (i 0).val < win5_2.index _ (0 : Fin 2) * 2000 + 2000; rw [e0]; show (i 0).val / 2000 * 2000 ≤ (i 0).val ∧ (i 0).val < (i 0).val / 2000 * 2000 + 2000; omega
  | ⟨1, _⟩ => show win5_2.index _ (1 : Fin 2) * 32 ≤ (i 1).val ∧ (i 1).val < win5_2.index _ (1 : Fin 2) * 32 + 32; rw [e1]; omega

/-- After the launch the output array is the aggregated array with the bias row added to every row and the
    rectifier applied. -/
theorem arr (c : Dev nD) :
    (dat5 (F := Ideal) V c).arrAt 2 cfg5.N = Cert.Gcn.biasRelu (V c main_v50) (V c main_v51) :=
  (dat5 (F := Ideal) V c).arrAt_eq_of_cover 2 _ (fun t _ => flushed_eq V c t) cover

end Cert.KernelIdeal.Reg5

end
-- ==== Proof.Region6.lean ====
/-
  The read-out launch: ONE grid point, staging the whole [512, 32] pooled array, the whole [32, 2] weight matrix
  and the whole [1, 2] bias row, and writing back the whole [512, 2] array whose entry (p, q) is the product of
  pooled row p with weight column q, plus the bias of column q.

  Every window is its whole array at the one point, so the entry (p, q) of what that point writes is the entry
  (p, q) of ONE whole-array function of the arrays as the launch finds them: every row through the affine map.
  The one block is the whole output array, so after the launch the output array is that function.
-/
import proofs.«175829_j26723286516384_1_alg».proof.Proof.Gen.KernelIdeal.Frame
import proofs.«175829_j26723286516384_1_alg».proof.Proof.LibGcnStages
import Idealize.ShloMosaic.Lib.Pipeline.Value

noncomputable section

namespace Cert.KernelIdeal.Reg6

open scoped BigOperators
open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The array the body leaves, at an entry: staged pooled row p against staged weight column q, summed over the
    32 hidden units, plus the staged bias of column q. -/
theorem out_apply (x0 : Vec Ideal S512x32 .f32) (x1 : Vec Ideal S32x2 .f32) (x2 : Vec Ideal S1x2 .f32)
    (p : Fin 512) (q : Fin 2) :
    out6_3 x0 x1 x2 (ix2 p q)
      = (∑ k : Fin 32, x0 (ix2 p k) * x1 (ix2 k q)) + x2 (ix2 (0 : Fin 1) q) := by
  unfold out6_3
  rw [View.canon_unit_zero hz]
  simp only [View.ld_unit_zero (S := S512x32) hz, View.ld_unit_zero (S := S32x2) hz,
    View.ld_unit_zero (S := S1x2) hz]
  unfold k6_pay1
  exact Cert.Gcn.tile_linBias Facts₀.dot_S512x32_S32x2_S512x2_1_0_0_1_n_n_wf x0 x1 x2 _ _ _ _ p q

/-- The four index maps at the grid's point: every window's block is block (0, 0), the whole array. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- Entry (p, k) of the staged pooled array is its entry (p, k). -/
theorem emb0 (t : Fin cfg6.N) (p : Fin 512) (k : Fin 32) :
    ((cfg6.win 0).blk t).view.emb (ix2 p k) = ix2 p k := by
  obtain ⟨e0, e1, -, -, -, -, -, -⟩ := idx_facts t
  funext a; apply Fin.ext
  match a with
  | ⟨0, _⟩ => show win6_0.index t (0 : Fin 2) * 512 + 1 * p.val = p.val; omega
  | ⟨1, _⟩ => show win6_0.index t (1 : Fin 2) * 32 + 1 * k.val = k.val; omega

/-- Entry (k, q) of the staged weight matrix is its entry (k, q). -/
theorem emb1 (t : Fin cfg6.N) (k : Fin 32) (q : Fin 2) :
    ((cfg6.win 1).blk t).view.emb (ix2 k q) = ix2 k q := by
  obtain ⟨-, -, e0, e1, -, -, -, -⟩ := idx_facts t
  funext a; apply Fin.ext
  match a with
  | ⟨0, _⟩ => show win6_1.index t (0 : Fin 2) * 32 + 1 * k.val = k.val; omega
  | ⟨1, _⟩ => show win6_1.index t (1 : Fin 2) * 2 + 1 * q.val = q.val; omega

/-- Entry (p, q) of the staged bias row is its entry (p, q). -/
theorem emb2 (t : Fin cfg6.N) (p : Fin 1) (q : Fin 2) :
    ((cfg6.win 2).blk t).view.emb (ix2 p q) = ix2 p q := by
  obtain ⟨-, -, -, -, e0, e1, -, -⟩ := idx_facts t
  funext a; apply Fin.ext
  match a with
  | ⟨0, _⟩ => show win6_2.index t (0 : Fin 2) * 1 + 1 * p.val = p.val; omega
  | ⟨1, _⟩ => show win6_2.index t (1 : Fin 2) * 2 + 1 * q.val = q.val; omega

/-- Entry (p, q) of the output window's block is entry (p, q) of the output array. -/
theorem emb3 (t : Fin cfg6.N) (p : Fin 512) (q : Fin 2) :
    ((cfg6.win 3).blk t).view.emb (ix2 p q) = ix2 p q := by
  obtain ⟨-, -, -, -, -, -, e0, e1⟩ := idx_facts t
  funext a; apply Fin.ext
  match a with
  | ⟨0, _⟩ => show win6_3.index t (0 : Fin 2) * 512 + 1 * p.val = p.val; omega
  | ⟨1, _⟩ => show win6_3.index t (1 : Fin 2) * 2 + 1 * q.val = q.val; omega

/-- The staged pooled array, at an entry. -/
theorem iblk0_apply (c : Dev nD) (t : Fin cfg6.N) (p : Fin 512) (k : Fin 32) :
    iblk6 V c 0 t (ix2 p k) = V c main_v64 (ix2 p k) := by
  unfold iblk6
  rw [View.read_apply, emb0]
  rfl

/-- The staged weight matrix, at an entry. -/
theorem iblk1_apply (c : Dev nD) (t : Fin cfg6.N) (k : Fin 32) (q : Fin 2) :
    iblk6 V c 1 t (ix2 k q) = V c main_arg7 (ix2 k q) := by
  unfold iblk6
  rw [View.read_apply, emb1]
  rfl

/-- The staged bias row, at an entry. -/
theorem iblk2_apply (c : Dev nD) (t : Fin cfg6.N) (p : Fin 1) (q : Fin 2) :
    iblk6 V c 2 t (ix2 p q) = V c main_v65 (ix2 p q) := by
  unfold iblk6
  rw [View.read_apply, emb2]
  rfl

/-- What the one point writes back is the pooled array through the affine map, read through the output window. -/
theorem flushed_eq (c : Dev nD) (t : Fin cfg6.N) :
    (dat6 (F := Ideal) V c).flushed 3 t
      = ((cfg6.win 3).blk t).view.read (Elt Ideal)
          (Cert.Gcn.linBias (V c main_v64) (V c main_arg7) (V c main_v65)) := by
  show (cfg6.win 3).cut (grid6.coords t) ((dat6 (F := Ideal) V c).after 3 t) = _
  rw [after6_3]
  funext y
  obtain ⟨p, q, rfl⟩ : ∃ (p : Fin 512) (q : Fin 2), y = ix2 p q := ⟨y 0, y 1, eq_ix2 y⟩
  refine (out_apply (iblk6 V c 0 t) (iblk6 V c 1 t) (iblk6 V c 2 t) p q).trans ?_
  rw [iblk2_apply, View.read_apply, emb3, Cert.Gcn.linBias_apply]
  simp only [iblk0_apply, iblk1_apply]
  rfl

/-- Membership in the output window's block, coordinate by coordinate. -/
theorem mem_blk (t : Fin cfg6.N) (i : S512x2.Idx) :
    i ∈ ((cfg6.win 3).blk t).view.set ↔ ∀ a : Fin 2, win6_3.index t a * S512x2.size a ≤ (i a).val ∧ (i a).val < win6_3.index t a * S512x2.size a + S512x2.size a := by
  show i ∈ ((View.whole main_v66).slice (win6_3.rect t)).set ↔ _
  rw [View.set_slice_whole, Rect.mem_set_unit]
  exact Iff.rfl

/-- Every entry of the output array lies in the one point's block. -/
theorem cover (i : S512x2.Idx) :
    ∃ t : Fin cfg6.N, (cfg6.win 3).flush t = true ∧ i ∈ ((cfg6.win 3).blk t).view.set := by
  have hi0 : (i 0).val < 512 := (i 0).isLt
  have hi1 : (i 1).val < 2 := (i 1).isLt
  refine ⟨⟨0, by rw [show cfg6.N = 1 from N_6]; omega⟩, flush6_3 _, ?_⟩
  rw [mem_blk]
  obtain ⟨-, -, -, -, -, -, e0, e1⟩ := idx_facts ⟨0, by rw [show cfg6.N = 1 from N_6]; omega⟩
  intro a
  match a with
  | ⟨0, _⟩ => show win6_3.index _ (0 : Fin 2) * 512 ≤ (i 0).val ∧ (i 0).val < win6_3.index _ (0 : Fin 2) * 512 + 512; rw [e0]; omega
  | ⟨1, _⟩ => show win6_3.index _ (1 : Fin 2) * 2 ≤ (i 1).val ∧ (i 1).val < win6_3.index _ (1 : Fin 2) * 2 + 2; rw [e1]; omega

/-- After the launch the output array is every row of the pooled array through the affine map. -/
theorem arr (c : Dev nD) :
    (dat6 (F := Ideal) V c).arrAt 3 cfg6.N = Cert.Gcn.linBias (V c main_v64) (V c main_arg7) (V c main_v65) :=
  (dat6 (F := Ideal) V c).arrAt_eq_of_cover 3 _ (fun t _ => flushed_eq V c t) cover

end Cert.KernelIdeal.Reg6

end
-- ==== Proof.KernelFold.lean ====
/-
  The kernel program's result as ONE function of its nine arguments.

  From the edge list the host builds the source and target index vectors (every edge, then one self-loop per
  node), counts the target degree of every node by an accumulating scatter of ones, and takes the guarded inverse
  square root `dinv`.  A graph-convolution layer is then: project the node features and scale row `p` by
  `dinv p` (a launch over row tiles); gather the projected row of every edge's source; scale edge row `e` by
  `dinv` at the edge's target (a launch over edge tiles); scatter-add the edge rows to their targets; add the bias
  and rectify (a launch).  Two layers, the mean pooling of the node rows over their graphs (two scatters and a
  quotient), and the affine classifier (one launch) give the result.  Each launch's output array is the matching
  whole-array stage function of its input arrays; each host stretch's outputs are its operations applied to the
  buffers it reads; everything else is carried unchanged from the segment that wrote it.
-/
import proofs.«175829_j26723286516384_1_alg».proof.Proof.FoldKeep
import proofs.«175829_j26723286516384_1_alg».proof.Proof.LibGcnStages
import proofs.«175829_j26723286516384_1_alg».proof.Proof.LibTypedRefs
import proofs.«175829_j26723286516384_1_alg».proof.Proof.Region0
import proofs.«175829_j26723286516384_1_alg».proof.Proof.Region1
import proofs.«175829_j26723286516384_1_alg».proof.Proof.Region2
import proofs.«175829_j26723286516384_1_alg».proof.Proof.Region3
import proofs.«175829_j26723286516384_1_alg».proof.Proof.Region4
import proofs.«175829_j26723286516384_1_alg».proof.Proof.Region5
import proofs.«175829_j26723286516384_1_alg».proof.Proof.Region6

noncomputable section

namespace Cert.KernelIdeal.Fold

open Cert.KernelIdeal Cert.KernelIdeal.Gen
open Idealize.ShloMosaic Idealize.ShloMosaic.TcCoe Idealize.SL.Sem Idealize.ShloMosaic.StableHlo

/-! ## The host side, in the program's spelling -/

/-- Every edge's source, then every node (the self-loops). -/
def srcAll (a1 : IVec S2x3200000 32) : IVec S3300000 32 :=
  concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0

/-- Every edge's target, then every node. -/
def dstAll (a1 : IVec S2x3200000 32) : IVec S3300000 32 :=
  concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0

/-- An index vector as a column of indices. -/
def idxCol (v : IVec S3300000 32) : IVec S3300000x1 32 :=
  broadcastInDim S3300000x1 ![0] bcast_S3300000_S3300000x1_0 v

/-- The number of edges (self-loops included) that point at each node. -/
def deg (a1 : IVec S2x3200000 32) : FVec Ideal S100000 .f32 :=
  Host.scatterAdd (F := Ideal) scatter_S100000_S3300000x1_S3300000_n_0_0_1
    (broadcastInDim S100000 ![] bcast_S_S100000 (constant (F := Ideal) S_ .f32 0x00000000#32))
    (idxCol (dstAll a1))
    (broadcastInDim S3300000 ![] bcast_S_S3300000 (constant (F := Ideal) S_ .f32 0x3F800000#32))

/-- The inverse square root of the degree where it is positive, zero elsewhere. -/
def dinv (a1 : IVec S2x3200000 32) : FVec Ideal S100000 .f32 :=
  select (cmpf (F := Ideal) .ogt (deg a1) (broadcastInDim S100000 ![] bcast_S_S100000 (constant (F := Ideal) S_ .f32 0x00000000#32)))
    (Host.rsqrt (F := Ideal) (deg a1))
    (broadcastInDim S100000 ![] bcast_S_S100000 (id (constant (F := Ideal) S_ .f32 0x00000000#32)))

/-- An index vector with its negative entries moved up by the number of nodes, as a column. -/
def wrapCol (v : IVec S3300000 32) : IVec S3300000x1 32 :=
  idxCol (select (cmpi .slt v (broadcastInDim S3300000 ![] bcast_S_S3300000 (constantI S_ 32 0#32)))
    (addi v (broadcastInDim S3300000 ![] bcast_S_S3300000 (constantI S_ 32 100000#32))) v)

/-- Per edge, the normalisation of its target, as a column. -/
def dinvDst (a1 : IVec S2x3200000 32) : FVec Ideal S3300000x1 .f32 :=
  shapeCast S3300000x1 (Host.gather gather_S100000_S3300000x1_S3300000_n_0_n_n_0_1_1 (dinv a1) (wrapCol (dstAll a1))) shapeCasts_S3300000_S3300000x1

/-- Per node, its normalisation, as a column. -/
def dinvCol (a1 : IVec S2x3200000 32) : FVec Ideal S100000x1 .f32 :=
  shapeCast S100000x1 (dinv a1) shapeCasts_S100000_S100000x1

/-- The per-edge messages of a layer: the projected and scaled rows gathered at the sources, then scaled by the
    targets' normalisations. -/
def msgK {K : ℕ} (a1 : IVec S2x3200000 32) (h : FVec Ideal ⟨2, ![100000, K]⟩ .f32) (W : FVec Ideal ⟨2, ![K, 32]⟩ .f32) :
    FVec Ideal S3300000x32 .f32 :=
  Cert.Gcn.scaleRows
    (Host.gather gather_S100000x32_S3300000x1_S3300000x32_1_0_n_n_0_1_132 (Cert.Gcn.linScale h W (dinvCol a1)) (wrapCol (srcAll a1)))
    (dinvDst a1)

/-- The messages added up at their targets. -/
def aggK {K : ℕ} (a1 : IVec S2x3200000 32) (h : FVec Ideal ⟨2, ![100000, K]⟩ .f32) (W : FVec Ideal ⟨2, ![K, 32]⟩ .f32) :
    FVec Ideal S100000x32 .f32 :=
  Host.scatterAdd (F := Ideal) scatter_S100000x32_S3300000x1_S3300000x32_1_0_0_1
    (broadcastInDim S100000x32 ![] bcast_S_S100000x32 (constant (F := Ideal) S_ .f32 0x00000000#32))
    (idxCol (dstAll a1)) (msgK a1 h W)

/-- One layer. -/
def layerK {K : ℕ} (a1 : IVec S2x3200000 32) (h : FVec Ideal ⟨2, ![100000, K]⟩ .f32) (W : FVec Ideal ⟨2, ![K, 32]⟩ .f32)
    (b : FVec Ideal S32 .f32) : FVec Ideal S100000x32 .f32 :=
  Cert.Gcn.biasRelu (aggK a1 h W) (shapeCast S1x32 b shapeCasts_S32_S1x32)

/-- The node rows averaged over their graphs (an empty graph divides by one). -/
def pooledK (a2 : IVec S100000 32) (h2 : FVec Ideal S100000x32 .f32) : FVec Ideal S512x32 .f32 :=
  Host.divf (F := Ideal)
    (Host.scatterAdd (F := Ideal) scatter_S512x32_S100000x1_S100000x32_1_0_0_1
      (broadcastInDim S512x32 ![] bcast_S_S512x32 (constant (F := Ideal) S_ .f32 0x00000000#32))
      (broadcastInDim S100000x1 ![0] bcast_S100000_S100000x1_0 a2) h2)
    (broadcastInDim S512x32 ![0, 1] bcast_S512x1_S512x32_0_1 (broadcastInDim S512x1 ![0] bcast_S512_S512x1_0
      (maximumf (F := Ideal)
        (Host.scatterAdd (F := Ideal) scatter_S512_S100000x1_S100000_n_0_0_1
          (broadcastInDim S512 ![] bcast_S_S512 (constant (F := Ideal) S_ .f32 0x00000000#32))
          (broadcastInDim S100000x1 ![0] bcast_S100000_S100000x1_0 a2)
          (broadcastInDim S100000 ![] bcast_S_S100000 (constant (F := Ideal) S_ .f32 0x3F800000#32)))
        (broadcastInDim S512 ![] bcast_S_S512 (constant (F := Ideal) S_ .f32 0x3F800000#32)))))

/-- The program's result. -/
def resultK (a0 : FVec Ideal S100000x8 .f32) (a1 : IVec S2x3200000 32) (a2 : IVec S100000 32) (a3 : FVec Ideal S8x32 .f32)
    (a4 : FVec Ideal S32 .f32) (a5 : FVec Ideal S32x32 .f32) (a6 : FVec Ideal S32 .f32) (a7 : FVec Ideal S32x2 .f32)
    (a8 : FVec Ideal S2 .f32) : FVec Ideal S512x2 .f32 :=
  Cert.Gcn.linBias (pooledK a2 (layerK a1 (layerK a1 a0 a3 a4) a5 a6)) a7 (shapeCast S1x2 a8 shapeCasts_S2_S1x2)

section
variable (m : (ℓ : Loc nD τ sig) → Buf (Elt Ideal) ℓ) (ρ : Dev nD → PrngReg)

-- the reads below rewrite once per (operation, buffer) pair and decide one inequality of buffers each time
set_option maxHeartbeats 4000000

/-- One segment back through the fold at a buffer the segment does not write, as often as it applies. -/
local macro "carry " r:term : tactic => `(tactic| repeat (first
  | rw [W16_of_ne _ _ _ $r (by decide)]
  | rw [keep15 _ _ _ $r (by decide)]
  | rw [W14_of_ne _ _ _ $r (by decide)]
  | rw [keep13 _ _ _ $r (by decide)]
  | rw [W12_of_ne _ _ _ $r (by decide)]
  | rw [keep11 _ _ _ $r (by decide)]
  | rw [W10_of_ne _ _ _ $r (by decide)]
  | rw [keep9 _ _ _ $r (by decide)]
  | rw [W8_of_ne _ _ _ $r (by decide)]
  | rw [keep7 _ _ _ $r (by decide)]
  | rw [W6_of_ne _ _ _ $r (by decide)]
  | rw [keep6_v22]
  | rw [keep5 _ _ _ $r (by decide)]
  | rw [W4_of_ne _ _ _ $r (by decide)]
  | rw [keep3 _ _ _ $r (by decide)]
  | rw [keep2 _ _ _ $r (by decide)]
  | rw [keep1 _ _ _ $r (by decide)]))

/-! ## The index vectors and the normalisation, where the first stretches leave them -/

theorem v5_at1 (c : Dev nD) : W1 m ρ c (Proc.devRef .tc main_v5) = srcAll (m ((c.tc : Thread nD τ).loc main_arg1)) := by
  show StableHlo.after hostOps0 (W0 m ρ c) (Proc.devRef .tc main_v5) = _
  after_results
  rfl

theorem v6_at1 (c : Dev nD) : W1 m ρ c (Proc.devRef .tc main_v6) = dstAll (m ((c.tc : Thread nD τ).loc main_arg1)) := by
  show StableHlo.after hostOps0 (W0 m ρ c) (Proc.devRef .tc main_v6) = _
  after_results
  rfl

theorem v10_at1 (c : Dev nD) : W1 m ρ c (Proc.devRef .tc main_v10) = deg (m ((c.tc : Thread nD τ).loc main_arg1)) := by
  show StableHlo.after hostOps0 (W0 m ρ c) (Proc.devRef .tc main_v10) = _
  after_results
  rfl

theorem v12_at1 (c : Dev nD) : W1 m ρ c (Proc.devRef .tc main_v12)
    = cmpf (F := Ideal) .ogt (deg (m ((c.tc : Thread nD τ).loc main_arg1))) (broadcastInDim S100000 ![] bcast_S_S100000 (constant (F := Ideal) S_ .f32 0x00000000#32)) := by
  show StableHlo.after hostOps0 (W0 m ρ c) (Proc.devRef .tc main_v12) = _
  after_results
  rfl

theorem v13_at1 (c : Dev nD) : W1 m ρ c (Proc.devRef .tc main_v13) = Host.rsqrt (F := Ideal) (deg (m ((c.tc : Thread nD τ).loc main_arg1))) := by
  show StableHlo.after hostOps0 (W0 m ρ c) (Proc.devRef .tc main_v13) = _
  after_results
  rfl

theorem cst2_at1 (c : Dev nD) : W1 m ρ c (Proc.devRef .tc main_cst_2) = constant (F := Ideal) S_ .f32 0x00000000#32 := by
  show StableHlo.after hostOps0 (W0 m ρ c) (Proc.devRef .tc main_cst_2) = _
  after_results

/-! The guarded inverse square root is computed by a module-local function; its values sit in buffers whose
types compute to the values' types, and moving contents between the two spellings of one type is the identity. -/

theorem toBuf_v14 (v : FVec Ideal S100000 .f32) :
    (TRef.of (T := ⟨S100000, .f32⟩) main_v14).toBuf (Val := Elt Ideal) v = v := rfl

theorem ofBuf_v13 (v : FVec Ideal S100000 .f32) :
    (TRef.of (T := ⟨S100000, .f32⟩) main_v13).ofBuf (Val := Elt Ideal) v = v := rfl

theorem ofBuf_v12 (v : IVec S100000 1) :
    (TRef.of (T := ⟨S100000, .i1⟩) main_v12).ofBuf (Val := Elt Ideal) v = v := rfl

theorem ofBuf_cst2 (v : FVec Ideal S_ .f32) :
    (TRef.of (T := ⟨S_, .f32⟩) main_cst_2).ofBuf (Val := Elt Ideal) v = v := rfl

theorem v14_at2 (c : Dev nD) : W2 m ρ c (Proc.devRef .tc main_v14) = dinv (m ((c.tc : Thread nD τ).loc main_arg1)) := by
  have h12 := v12_at1 m ρ c
  have h13 := v13_at1 m ρ c
  have hc2 := cst2_at1 m ρ c
  show StableHlo.after hostOps0_1 (W1 m ρ c) (Proc.devRef .tc main_v14) = _
  generalize W1 m ρ c = X at h12 h13 hc2 ⊢
  after_results
  rw [h12, h13, hc2]
  -- one transport goes with each rewrite, whichever buffer of that value type it is at
  repeat rw [toBuf_v14]
  repeat rw [ofBuf_v13]
  repeat rw [ofBuf_v12]
  repeat rw [ofBuf_cst2]
  rfl

theorem v22_at3 (c : Dev nD) : W3 m ρ c (Proc.devRef .tc main_v22) = dinvDst (m ((c.tc : Thread nD τ).loc main_arg1)) := by
  have h14 := v14_at2 m ρ c
  have h6 : W2 m ρ c (Proc.devRef .tc main_v6) = dstAll (m ((c.tc : Thread nD τ).loc main_arg1)) :=
    (keep2 m ρ c main_v6 (by decide)).trans (v6_at1 m ρ c)
  show StableHlo.after hostOps0_2 (W2 m ρ c) (Proc.devRef .tc main_v22) = _
  generalize W2 m ρ c = X at h14 h6 ⊢
  after_results
  rw [h14, h6]
  rfl

theorem v23_at3 (c : Dev nD) : W3 m ρ c (Proc.devRef .tc main_v23) = dinvCol (m ((c.tc : Thread nD τ).loc main_arg1)) := by
  have h14 := v14_at2 m ρ c
  show StableHlo.after hostOps0_2 (W2 m ρ c) (Proc.devRef .tc main_v23) = _
  generalize W2 m ρ c = X at h14 ⊢
  after_results
  rw [h14]
  rfl

/-! ## The first layer -/

theorem v24_at4 (c : Dev nD) : W4 m ρ c (Proc.devRef .tc main_v24)
    = Cert.Gcn.linScale (m ((c.tc : Thread nD τ).loc main_arg0)) (m ((c.tc : Thread nD τ).loc main_arg3))
        (dinvCol (m ((c.tc : Thread nD τ).loc main_arg1))) := by
  refine (W4_arr m ρ c 3).trans ((Reg0.arr (V3 m ρ) c).trans ?_)
  show Cert.Gcn.linScale (W3 m ρ c (Proc.devRef .tc main_arg0)) (W3 m ρ c (Proc.devRef .tc main_arg3))
      (W3 m ρ c (Proc.devRef .tc main_v23)) = _
  rw [v23_at3]
  carry main_arg0
  carry main_arg3

theorem v32_at6 (c : Dev nD) : W6 m ρ c (Proc.devRef .tc main_v32)
    = msgK (m ((c.tc : Thread nD τ).loc main_arg1)) (m ((c.tc : Thread nD τ).loc main_arg0)) (m ((c.tc : Thread nD τ).loc main_arg3)) := by
  refine (W6_arr m ρ c 2).trans ((Reg1.arr (V5 m ρ) c).trans ?_)
  show Cert.Gcn.scaleRows (StableHlo.after hostOps1 (W4 m ρ c) (Proc.devRef .tc main_v31)) (W5 m ρ c (Proc.devRef .tc main_v22)) = _
  after_results
  rw [v24_at4]
  carry main_v5
  rw [v5_at1]
  carry main_v22
  rw [v22_at3]
  rfl

theorem v37_at8 (c : Dev nD) : W8 m ρ c (Proc.devRef .tc main_v37)
    = layerK (m ((c.tc : Thread nD τ).loc main_arg1)) (m ((c.tc : Thread nD τ).loc main_arg0)) (m ((c.tc : Thread nD τ).loc main_arg3))
        (m ((c.tc : Thread nD τ).loc main_arg4)) := by
  refine (W8_arr m ρ c 2).trans ((Reg2.arr (V7 m ρ) c).trans ?_)
  show Cert.Gcn.biasRelu (StableHlo.after hostOps2 (W6 m ρ c) (Proc.devRef .tc main_v35))
      (StableHlo.after hostOps2 (W6 m ρ c) (Proc.devRef .tc main_v36)) = _
  after_results
  rw [v32_at6]
  carry main_v6
  rw [v6_at1]
  carry main_arg4
  rfl

/-! ## The second layer -/

theorem v39_at10 (c : Dev nD) : W10 m ρ c (Proc.devRef .tc main_v39)
    = Cert.Gcn.linScale (layerK (m ((c.tc : Thread nD τ).loc main_arg1)) (m ((c.tc : Thread nD τ).loc main_arg0))
          (m ((c.tc : Thread nD τ).loc main_arg3)) (m ((c.tc : Thread nD τ).loc main_arg4)))
        (m ((c.tc : Thread nD τ).loc main_arg5)) (dinvCol (m ((c.tc : Thread nD τ).loc main_arg1))) := by
  refine (W10_arr m ρ c 3).trans ((Reg3.arr (V9 m ρ) c).trans ?_)
  show Cert.Gcn.linScale (W9 m ρ c (Proc.devRef .tc main_v37)) (W9 m ρ c (Proc.devRef .tc main_arg5))
      (StableHlo.after hostOps3 (W8 m ρ c) (Proc.devRef .tc main_v38)) = _
  after_results
  carry main_v37
  rw [v37_at8]
  carry main_v14
  rw [v14_at2]
  carry main_arg5
  rfl

theorem v47_at12 (c : Dev nD) : W12 m ρ c (Proc.devRef .tc main_v47)
    = msgK (m ((c.tc : Thread nD τ).loc main_arg1))
        (layerK (m ((c.tc : Thread nD τ).loc main_arg1)) (m ((c.tc : Thread nD τ).loc main_arg0))
          (m ((c.tc : Thread nD τ).loc main_arg3)) (m ((c.tc : Thread nD τ).loc main_arg4)))
        (m ((c.tc : Thread nD τ).loc main_arg5)) := by
  refine (W12_arr m ρ c 2).trans ((Reg4.arr (V11 m ρ) c).trans ?_)
  show Cert.Gcn.scaleRows (StableHlo.after hostOps4 (W10 m ρ c) (Proc.devRef .tc main_v46)) (W11 m ρ c (Proc.devRef .tc main_v22)) = _
  after_results
  rw [v39_at10]
  carry main_v5
  rw [v5_at1]
  carry main_v22
  rw [v22_at3]
  rfl

theorem v52_at14 (c : Dev nD) : W14 m ρ c (Proc.devRef .tc main_v52)
    = layerK (m ((c.tc : Thread nD τ).loc main_arg1))
        (layerK (m ((c.tc : Thread nD τ).loc main_arg1)) (m ((c.tc : Thread nD τ).loc main_arg0))
          (m ((c.tc : Thread nD τ).loc main_arg3)) (m ((c.tc : Thread nD τ).loc main_arg4)))
        (m ((c.tc : Thread nD τ).loc main_arg5)) (m ((c.tc : Thread nD τ).loc main_arg6)) := by
  refine (W14_arr m ρ c 2).trans ((Reg5.arr (V13 m ρ) c).trans ?_)
  show Cert.Gcn.biasRelu (StableHlo.after hostOps5 (W12 m ρ c) (Proc.devRef .tc main_v50))
      (StableHlo.after hostOps5 (W12 m ρ c) (Proc.devRef .tc main_v51)) = _
  after_results
  rw [v47_at12]
  carry main_v6
  rw [v6_at1]
  carry main_arg6
  rfl

/-! ## The pooling and the classifier -/

theorem result_at16 (c : Dev nD) : W16 m ρ c (Proc.devRef .tc main_v66)
    = resultK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (W16_arr m ρ c 3).trans ((Reg6.arr (V15 m ρ) c).trans ?_)
  show Cert.Gcn.linBias (StableHlo.after hostOps6 (W14 m ρ c) (Proc.devRef .tc main_v64)) (W15 m ρ c (Proc.devRef .tc main_arg7))
      (StableHlo.after hostOps6 (W14 m ρ c) (Proc.devRef .tc main_v65)) = _
  after_results
  rw [v52_at14]
  carry main_arg2
  carry main_arg7
  carry main_arg8
  rfl

end

end Cert.KernelIdeal.Fold

end
-- ==== Proof.RefResult.lean ====
/-
  The reference program's result as ONE function of its nine arguments, layer by layer.

  The reference is a straight line of host operations.  Its run ends with the result buffer at the operations'
  composed term of the arguments; that term is cut here into the same pieces as the kernel program's — the index
  vectors, the degrees and their guarded inverse square roots, two graph-convolution layers (each a product, a
  row gather at the sources, the product of the two gathered normalisations repeated across the columns, the
  accumulating scatter to the targets, the repeated bias row and the rectifier), the mean pooling, and the affine
  classifier — so that the two programs can be compared piece by piece.  The reference builds the index vectors
  and the normalisation again for its second layer; as terms of the arguments they are the first layer's.
-/
import proofs.«175829_j26723286516384_1_alg».proof.Proof.RefRun
import proofs.«175829_j26723286516384_1_alg».proof.Proof.LibMatmul2

noncomputable section

namespace Cert.ReferenceIdeal.Spelled

open Cert.ReferenceIdeal Cert.ReferenceIdeal.Gen
open Idealize.ShloMosaic Idealize.ShloMosaic.TcCoe Idealize.SL.Sem Idealize.ShloMosaic.StableHlo

/-- Every edge's source, then every node (the self-loops). -/
def srcAll (a1 : IVec S2x3200000 32) : IVec S3300000 32 :=
  concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0

/-- Every edge's target, then every node. -/
def dstAll (a1 : IVec S2x3200000 32) : IVec S3300000 32 :=
  concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0

/-- An index vector as a column of indices. -/
def idxCol (v : IVec S3300000 32) : IVec S3300000x1 32 :=
  broadcastInDim S3300000x1 ![0] bcast_S3300000_S3300000x1_0 v

/-- The number of edges (self-loops included) that point at each node. -/
def deg (a1 : IVec S2x3200000 32) : FVec Ideal S100000 .f32 :=
  Host.scatterAdd (F := Ideal) scatter_S100000_S3300000x1_S3300000_n_0_0_1
    (broadcastInDim S100000 ![] bcast_S_S100000 (constant (F := Ideal) S_ .f32 0x00000000#32))
    (idxCol (dstAll a1))
    (broadcastInDim S3300000 ![] bcast_S_S3300000 (constant (F := Ideal) S_ .f32 0x3F800000#32))

/-- The inverse square root of the degree where it is positive, zero elsewhere. -/
def dinv (a1 : IVec S2x3200000 32) : FVec Ideal S100000 .f32 :=
  select (cmpf (F := Ideal) .ogt (deg a1) (broadcastInDim S100000 ![] bcast_S_S100000 (constant (F := Ideal) S_ .f32 0x00000000#32)))
    (Host.rsqrt (F := Ideal) (deg a1))
    (broadcastInDim S100000 ![] bcast_S_S100000 (id (constant (F := Ideal) S_ .f32 0x00000000#32)))

/-- An index vector with its negative entries moved up by the number of nodes, as a column. -/
def wrapCol (v : IVec S3300000 32) : IVec S3300000x1 32 :=
  idxCol (select (cmpi .slt v (broadcastInDim S3300000 ![] bcast_S_S3300000 (constantI S_ 32 0#32)))
    (addi v (broadcastInDim S3300000 ![] bcast_S_S3300000 (constantI S_ 32 100000#32))) v)

/-- One layer: project, gather at the sources, scale by the product of both ends' normalisations, add up at the
    targets, add the bias row, rectify. -/
def layerR {K : ℕ} (d : DotDims ⟨2, ![100000, K]⟩ ⟨2, ![K, 32]⟩ S100000x32) (a1 : IVec S2x3200000 32)
    (h : FVec Ideal ⟨2, ![100000, K]⟩ .f32) (W : FVec Ideal ⟨2, ![K, 32]⟩ .f32) (b : FVec Ideal S32 .f32) :
    FVec Ideal S100000x32 .f32 :=
  maximumf (F := Ideal)
    (addf (F := Ideal)
      (Host.scatterAdd (F := Ideal) scatter_S100000x32_S3300000x1_S3300000x32_1_0_0_1
        (broadcastInDim S100000x32 ![] bcast_S_S100000x32 (constant (F := Ideal) S_ .f32 0x00000000#32))
        (idxCol (dstAll a1))
        (mulf (F := Ideal)
          (Host.gather gather_S100000x32_S3300000x1_S3300000x32_1_0_n_n_0_1_132 (Host.dotGeneral (F := Ideal) d none h W) (wrapCol (srcAll a1)))
          (broadcastInDim S3300000x32 ![0, 1] bcast_S3300000x1_S3300000x32_0_1 (broadcastInDim S3300000x1 ![0] bcast_S3300000_S3300000x1_0
            (mulf (F := Ideal)
              (Host.gather gather_S100000_S3300000x1_S3300000_n_0_n_n_0_1_1 (dinv a1) (wrapCol (srcAll a1)))
              (Host.gather gather_S100000_S3300000x1_S3300000_n_0_n_n_0_1_1 (dinv a1) (wrapCol (dstAll a1))))))))
      (broadcastInDim S100000x32 ![0, 1] bcast_S1x32_S100000x32_0_1 (broadcastInDim S1x32 ![1] bcast_S32_S1x32_1 b)))
    (broadcastInDim S100000x32 ![] bcast_S_S100000x32 (constant (F := Ideal) S_ .f32 0x00000000#32))

/-- The node rows averaged over their graphs (an empty graph divides by one). -/
def pooledR (a2 : IVec S100000 32) (h2 : FVec Ideal S100000x32 .f32) : FVec Ideal S512x32 .f32 :=
  Host.divf (F := Ideal)
    (Host.scatterAdd (F := Ideal) scatter_S512x32_S100000x1_S100000x32_1_0_0_1
      (broadcastInDim S512x32 ![] bcast_S_S512x32 (constant (F := Ideal) S_ .f32 0x00000000#32))
      (broadcastInDim S100000x1 ![0] bcast_S100000_S100000x1_0 a2) h2)
    (broadcastInDim S512x32 ![0, 1] bcast_S512x1_S512x32_0_1 (broadcastInDim S512x1 ![0] bcast_S512_S512x1_0
      (maximumf (F := Ideal)
        (Host.scatterAdd (F := Ideal) scatter_S512_S100000x1_S100000_n_0_0_1
          (broadcastInDim S512 ![] bcast_S_S512 (constant (F := Ideal) S_ .f32 0x00000000#32))
          (broadcastInDim S100000x1 ![0] bcast_S100000_S100000x1_0 a2)
          (broadcastInDim S100000 ![] bcast_S_S100000 (constant (F := Ideal) S_ .f32 0x3F800000#32)))
        (broadcastInDim S512 ![] bcast_S_S512 (constant (F := Ideal) S_ .f32 0x3F800000#32)))))

/-- The reference's result. -/
def resultR (a0 : FVec Ideal S100000x8 .f32) (a1 : IVec S2x3200000 32) (a2 : IVec S100000 32) (a3 : FVec Ideal S8x32 .f32)
    (a4 : FVec Ideal S32 .f32) (a5 : FVec Ideal S32x32 .f32) (a6 : FVec Ideal S32 .f32) (a7 : FVec Ideal S32x2 .f32)
    (a8 : FVec Ideal S2 .f32) : FVec Ideal S512x2 .f32 :=
  addf (F := Ideal)
    (Host.dotGeneral (F := Ideal) dot_S512x32_S32x2_S512x2_1_0_0_1_n_n none
      (pooledR a2 (layerR dot_S100000x32_S32x32_S100000x32_1_0_0_1_n_n a1
        (layerR dot_S100000x8_S8x32_S100000x32_1_0_0_1_n_n a1 a0 a3 a4) a5 a6)) a7)
    (broadcastInDim S512x2 ![0, 1] bcast_S1x2_S512x2_0_1 (broadcastInDim S1x2 ![1] bcast_S2_S1x2_1 a8))

/-- The run's composed term is that function of the launch contents of the arguments. -/
theorem res_eq (m : (ℓ : Loc nD τ sig) → Buf (Elt Ideal) ℓ) (c : Dev nD) :
    Cert.ReferenceIdeal.ValueP.res_main_v107 (F := Ideal) m c
      = resultR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.ValueP.res_main_v107
  rfl

end Cert.ReferenceIdeal.Spelled

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.LibGcnHost.lean ====
/-
  THE HOST SIDE OF A GRAPH CONVOLUTION, READ AT AN INDEX, generic in the extents.

  An array indexing `x[idx]` first counts a negative index from the end (`select (idx < 0) (idx + n) idx`), presents the index
  vector as a column, and gathers rows, clamping; `segment_sum` scatters update rows into zeros at a column of
  indices, dropping what falls outside. Here these compositions are read at an index: the gathered entry is the
  operand's at the wrapped and clamped row, the scattered entry is the sum of the update rows sent to that row. An
  index that a scatter keeps is inside the range, so wrapping and clamping leave it alone (`clamp_wrap_of_row?`).
  Last, the symmetric normalizer `where(deg > 0, rsqrt(deg), 0)` is a real number that is not negative whatever
  `deg` is: where the guard holds, `deg` is a positive real or `+∞`, and the reciprocal root of either is a real
  ≥ 0; elsewhere it is 0.
-/
import Idealize.ShloMosaic.Lib.ValueIdx
import Idealize.ShloMosaic.Lib.Pipeline.Value
import Idealize.ShloMosaic.Lib.IdealHost
import Idealize.ShloMosaic.PureOps.Ideal.Laws
import proofs.«175829_j26723286516384_1_alg».proof.Proof.LibRowOps

noncomputable section

open scoped BigOperators
open Idealize.ShloMosaic Idealize.ShloMosaic.ValueIdx

namespace Cert.Lib

/-! ## A possibly negative row index -/

/-- The index word `w` counted from the end (`w + n`) when it is negative as a signed number, itself otherwise. -/
def wrapRow (n w : BitVec 32) : BitVec 32 := Scalar.select (IntOp.cmpi .slt w 0#32) (IntOp.addi w n) w

/-- The normalization of an index vector (a negative entry counts from the end), entry by entry. -/
theorem wrap_apply {s : Shape} (h0 hn : (⟨0, ![]⟩ : Shape).BroadcastsInDim s ![]) (n : BitVec 32) (v : IVec s 32) (i : s.Idx) :
    select (cmpi .slt v (broadcastInDim s ![] h0 (constantI ⟨0, ![]⟩ 32 0#32)))
        (addi v (broadcastInDim s ![] hn (constantI ⟨0, ![]⟩ 32 n))) v i = wrapRow n (v i) := by
  show Scalar.select (IntOp.cmpi .slt (v i) (broadcastInDim s ![] h0 (constantI ⟨0, ![]⟩ 32 0#32) i))
      (IntOp.addi (v i) (broadcastInDim s ![] hn (constantI ⟨0, ![]⟩ 32 n) i)) (v i) = _
  rw [broadcastInDim_scalar_apply, broadcastInDim_scalar_apply]
  rfl

/-- A word that is a row of an `n`-row array is not negative and below `n`: wrapping leaves it alone. -/
theorem wrapRow_of_row? {N : Nat} (hN32 : N < 2 ^ 31) (w : BitVec 32) (i : Fin N) (h : row? N w = some i) :
    wrapRow (BitVec.ofNat 32 N) w = w := by
  rw [row?_eq_some_iff] at h
  unfold wrapRow
  have hnn : ¬ (IntOp.cmpi .slt w 0#32 = 1) := by
    intro hc
    have h0 : w.toInt < 0 := by
      by_contra hlt
      simp [IntOp.cmpi, BitVec.slt, hlt] at hc
    omega
  unfold Scalar.select
  rw [if_neg hnn]

/-- An index a scatter keeps (`row?`) is the row a gather reads after wrapping and clamping. -/
theorem clamp_wrap_of_row? {N : Nat} (hN : 0 < N) (hN32 : N < 2 ^ 31) (w : BitVec 32) (i : Fin N) (h : row? N w = some i) :
    clampRow N hN (wrapRow (BitVec.ofNat 32 N) w) = i := by
  rw [wrapRow_of_row? hN32 w i h]; exact clampRow_of_row? hN w i h

/-! ## An index vector as a column -/

/-- An index vector `[E]` presented as a column `[E, 1]` reads the vector at the row. -/
theorem idxCol_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    split
    · have := e.isLt; omega
    · rfl

/-! ## Gather of rows at a wrapped index vector; scatter of rows into zeros -/

section
variable {N E D : Nat}

/-- `x[v]` for a 2-d `x` and an index vector `v` already normalized: the row `v e`, clamped. -/
theorem gatherRows_apply {α : Type} (hN : 0 < N)
    (wf : GatherDims.WF ⟨2, ![N, D]⟩ ⟨2, ![E, 1]⟩ ⟨2, ![E, D]⟩ [1] [0] [] [0] [] 1 ![1, D])
    (hb : (⟨1, ![E]⟩ : Shape).BroadcastsInDim ⟨2, ![E, 1]⟩ ![0])
    (x : (⟨2, ![N, D]⟩ : Shape).Idx → α) (v : IVec ⟨1, ![E]⟩ 32) (e : Fin E) (k : Fin D) :
    Host.gather (rowGather N E D wf) x (broadcastInDim ⟨2, ![E, 1]⟩ ![0] hb v) (ix2 e k)
      = x (ix2 (clampRow N hN (v (ix1 e))) k) := by
  rw [rowGather_apply hN wf, idxCol_apply]

/-- `segment_sum(upd, v)` of update rows into an all-zero `[N, D]` array: the sum of the rows sent to row `i`. -/
theorem scatterRows_apply
    (wf : ScatterDims.WF ⟨2, ![N, D]⟩ ⟨2, ![E, 1]⟩ ⟨2, ![E, D]⟩ [1] [0] [0] 1)
    (hb : (⟨1, ![E]⟩ : Shape).BroadcastsInDim ⟨2, ![E, 1]⟩ ![0])
    (h0 : (⟨0, ![]⟩ : Shape).BroadcastsInDim ⟨2, ![N, D]⟩ ![])
    (v : IVec ⟨1, ![E]⟩ 32) (upd : FVec Ideal ⟨2, ![E, D]⟩ .f32) (i : Fin N) (k : Fin D) :
    Host.scatterAdd (F := Ideal) (rowScatter N E D wf)
        (broadcastInDim ⟨2, ![N, D]⟩ ![] h0 (constant (F := Ideal) ⟨0, ![]⟩ .f32 0x00000000#32))
        (broadcastInDim ⟨2, ![E, 1]⟩ ![0] hb v) upd (ix2 i k)
      = ∑ e ∈ Finset.univ.filter (fun e : Fin E => row? N (v (ix1 e)) = some i), upd (ix2 e k) := by
  rw [rowScatterAdd_apply wf, broadcastInDim_scalar_apply, constant_apply, Ideal.ofBits_zero_f32, zero_add]
  refine Finset.sum_congr (Finset.filter_congr fun e _ => ?_) fun _ _ => rfl
  rw [idxCol_apply hb v e 0]

end

/-! ## Gather from a vector: `c[v]` for a 1-d array `c` -/

section VecGather
variable {α : Type}

/-- The dimension numbers of `c[idx]`: an operand `[N]`, start indices `[E, 1]`, a result `[E]`; the one axis is
    collapsed, slices have one element. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the index `idx[e, 0]`, read signed and clamped into `[0, N - 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e 0)))) := by
  unfold Host.gather
  congr 1
  funext a
  refine Fin.ext ?_
  match a with
  | ⟨0, _⟩ =>
    show (vecGather N E wf).start (ix1 e) idx 0 + (vecGather N E wf).batchCoord (ix1 e) 0
      + (vecGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- `c[v]` for a 1-d `c` and an index vector `v` already normalized. -/
theorem gatherVec_apply {N E : Nat} (hN : 0 < N)
    (wf : GatherDims.WF ⟨1, ![N]⟩ ⟨2, ![E, 1]⟩ ⟨1, ![E]⟩ [] [0] [] [0] [] 1 ![1])
    (hb : (⟨1, ![E]⟩ : Shape).BroadcastsInDim ⟨2, ![E, 1]⟩ ![0])
    (x : (⟨1, ![N]⟩ : Shape).Idx → α) (v : IVec ⟨1, ![E]⟩ 32) (e : Fin E) :
    Host.gather (vecGather N E wf) x (broadcastInDim ⟨2, ![E, 1]⟩ ![0] hb v) (ix1 e)
      = x (ix1 (clampRow N hN (v (ix1 e)))) := by
  rw [vecGather_apply hN wf, idxCol_apply]

end VecGather

/-! ## The guarded reciprocal root is a real that is not negative -/

/-- The reciprocal root of an extended real above zero is a real number ≥ 0 (of `+∞` it is 0). -/
theorem exists_real_rsqrt_of_pos (d : EReal) (hd : 0 < d) : ∃ r : ℝ, 0 ≤ r ∧ Ideal.rsqrt d = (r : EReal) := by
  induction d using EReal.rec with
  | bot => exact absurd hd (by simp)
  | top => exact ⟨0, le_refl _, by simp⟩
  | coe r =>
    have hr : 0 < r := by exact_mod_cast hd
    refine ⟨(Real.sqrt r)⁻¹, inv_nonneg.mpr (Real.sqrt_nonneg r), ?_⟩
    rw [Ideal.rsqrt_coe, if_neg (not_lt.mpr hr.le), if_neg hr.ne']

/-- `where(d > 0, rsqrt(d), 0)`, entry by entry, is a real number that is not negative, whatever `d` is. -/
theorem exists_real_guarded_rsqrt {s : Shape} (d z z' : FVec Ideal s .f32) (hz : ∀ i, z i = 0) (hz' : ∀ i, z' i = 0) (i : s.Idx) :
    ∃ r : ℝ, 0 ≤ r ∧ select (cmpf .ogt d z) (Host.rsqrt d) z' i = (r : EReal) := by
  show ∃ r : ℝ, 0 ≤ r ∧ Scalar.select (Ideal.cmp .ogt (d i) (z i)) (Ideal.rsqrt (d i)) (z' i) = (r : EReal)
  rw [hz, hz']
  by_cases hd : 0 < d i
  · have hc : Ideal.cmp .ogt (d i) 0 = 1#1 := by simp [Ideal.cmp, hd]
    rw [hc, select_one]
    exact exists_real_rsqrt_of_pos _ hd
  · have hc : Ideal.cmp .ogt (d i) 0 = 0#1 := by simp [Ideal.cmp, hd]
    rw [hc, select_zero]
    exact ⟨0, le_refl _, by simp⟩

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«175829_j26723286516384_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibGcnLayerLaw.lean ====
/-
  One graph-convolution layer in two spellings, and the classifier in two spellings.

  Write r(e) for the node an edge's source index names and r'(e) for the node its target index names (the index
  word read signed and clamped to the node range), and D(p) for the edges the scatter sends to node p.  With
  hW(r, q) = Σ_k h(r, k) · W(k, q), the layer at (p, q) is

      max ( z(p, q) + Σ_{e ∈ D(p)} msg(e, q)  +  b(q),  0 ),

  where one program forms  msg(e, q) = (hW(r(e), q) · dinv r(e)) · dinv r'(e)  — the projected rows are scaled by
  their own normalisation before they are gathered, and the gathered rows by the target's after — and the other
   msg(e, q) = hW(r(e), q) · (dinv r(e) · dinv r'(e)).  The two messages are equal on the extended reals because
  their multiplication is associative (with no finiteness needed), and nothing else differs: the same scatter,
  the same gathers, the same bias row and rectifier.  The classifier is Σ_k x(p, k) · W(k, q) + b(q) in both.
  Generic in every extent and in the three index columns.
-/
import proofs.«175829_j26723286516384_1_alg».proof.Proof.LibGcnStages
import proofs.«175829_j26723286516384_1_alg».proof.Proof.LibRowOps
import proofs.«175829_j26723286516384_1_alg».proof.Proof.LibGcnHost
import proofs.«175829_j26723286516384_1_alg».proof.Proof.LibHostDot2
import proofs.«175829_j26723286516384_1_alg».proof.Proof.LibHostRowCol
import proofs.«175829_j26723286516384_1_alg».proof.Proof.LibHostBiasRelu
import proofs.«175829_j26723286516384_1_alg».proof.Proof.LibColumnCast
import Idealize.ShloMosaic.Lib.ValueLayout

noncomputable section

namespace Cert.Gcn

open scoped BigOperators
open Idealize.ShloMosaic Idealize.ShloMosaic.ValueIdx Cert.Lib

variable {N E K D : ℕ}

/-- The message of edge `e` at column `q`, scaled in two steps, is the message scaled once by the product. -/
theorem message_eq (hN : 0 < N)
    (wfG : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (wfD : DotDims.WF ⟨2, ![N, K]⟩ ⟨2, ![K, D]⟩ ⟨2, ![N, D]⟩ [1] [0] [0] [1] [] [])
    (scol tcol : IVec ⟨2, ![E, 1]⟩ 32)
    (h : FVec Ideal ⟨2, ![N, K]⟩ .f32) (W : FVec Ideal ⟨2, ![K, D]⟩ .f32) (dv : FVec Ideal ⟨1, ![N]⟩ .f32)
    (hcN : (⟨1, ![N]⟩ : Shape).ShapeCasts ⟨2, ![N, 1]⟩) (hcE : (⟨1, ![E]⟩ : Shape).ShapeCasts ⟨2, ![E, 1]⟩)
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    (e : Fin E) (q : Fin D) :
    scaleRows (Host.gather (rowGather N E D wfG) (linScale h W (shapeCast ⟨2, ![N, 1]⟩ dv hcN)) scol)
        (shapeCast ⟨2, ![E, 1]⟩ (Host.gather (vecGather N E wfV) dv tcol) hcE) (ix2 e q)
      = mulf (Host.gather (rowGather N E D wfG) (Host.dotGeneral (plain2 wfD) none h W) scol)
          (broadcastInDim ⟨2, ![E, D]⟩ ![0, 1] hb2 (broadcastInDim ⟨2, ![E, 1]⟩ ![0] hb1
            (mulf (Host.gather (vecGather N E wfV) dv scol) (Host.gather (vecGather N E wfV) dv tcol)))) (ix2 e q) := by
  rw [scaleRows_apply, rowGather_apply hN wfG _ scol e q, linScale_apply, shapeCast_a_a1_apply dv hcN,
    shapeCast_a_a1_apply _ hcE, vecGather_apply hN wfV dv tcol e,
    mulf_apply, rowGather_apply hN wfG _ scol e q, hostDot2_apply wfD h W, bcast_col_cols_apply _ hb1 hb2 e q,
    mulf_apply, vecGather_apply hN wfV dv scol e, vecGather_apply hN wfV dv tcol e]
  exact mul_assoc _ _ _

/-- The layer: the two spellings are one array. -/
theorem layer_eq (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (wfD : DotDims.WF ⟨2, ![N, K]⟩ ⟨2, ![K, D]⟩ ⟨2, ![N, D]⟩ [1] [0] [0] [1] [] [])
    (z : FVec Ideal ⟨2, ![N, D]⟩ .f32) (dcol scol tcol : IVec ⟨2, ![E, 1]⟩ 32)
    (h : FVec Ideal ⟨2, ![N, K]⟩ .f32) (W : FVec Ideal ⟨2, ![K, D]⟩ .f32) (dv : FVec Ideal ⟨1, ![N]⟩ .f32)
    (b : FVec Ideal ⟨1, ![D]⟩ .f32)
    (hcN : (⟨1, ![N]⟩ : Shape).ShapeCasts ⟨2, ![N, 1]⟩) (hcE : (⟨1, ![E]⟩ : Shape).ShapeCasts ⟨2, ![E, 1]⟩)
    (hcb : (⟨1, ![D]⟩ : Shape).ShapeCasts ⟨2, ![1, D]⟩)
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    (hr1 : (⟨1, ![D]⟩ : Shape).BroadcastsInDim ⟨2, ![1, D]⟩ (![1] : Fin 1 → Fin 2))
    (hr2 : (⟨2, ![1, D]⟩ : Shape).BroadcastsInDim ⟨2, ![N, D]⟩ (![0, 1] : Fin 2 → Fin 2))
    (h0 : (⟨0, ![]⟩ : Shape).BroadcastsInDim ⟨2, ![N, D]⟩ (![] : Fin 0 → Fin 2)) :
    biasRelu (Host.scatterAdd (F := Ideal) (rowScatter N E D wfS) z dcol
        (scaleRows (Host.gather (rowGather N E D wfG) (linScale h W (shapeCast ⟨2, ![N, 1]⟩ dv hcN)) scol)
          (shapeCast ⟨2, ![E, 1]⟩ (Host.gather (vecGather N E wfV) dv tcol) hcE)))
      (shapeCast ⟨2, ![1, D]⟩ b hcb)
    = maximumf (addf (Host.scatterAdd (F := Ideal) (rowScatter N E D wfS) z dcol
          (mulf (Host.gather (rowGather N E D wfG) (Host.dotGeneral (plain2 wfD) none h W) scol)
            (broadcastInDim ⟨2, ![E, D]⟩ ![0, 1] hb2 (broadcastInDim ⟨2, ![E, 1]⟩ ![0] hb1
              (mulf (Host.gather (vecGather N E wfV) dv scol) (Host.gather (vecGather N E wfV) dv tcol))))))
          (broadcastInDim ⟨2, ![N, D]⟩ ![0, 1] hr2 (broadcastInDim ⟨2, ![1, D]⟩ ![1] hr1 b)))
        (broadcastInDim ⟨2, ![N, D]⟩ ![] h0 (constant (F := Ideal) ⟨0, ![]⟩ .f32 0x00000000#32)) := by
  funext j
  obtain ⟨p, q, rfl⟩ : ∃ (p : Fin N) (q : Fin D), j = ix2 p q := ⟨j 0, j 1, eq_ix2 j⟩
  rw [biasRelu_apply, hostBiasRelu_apply _ b hr1 hr2 h0 p q, shapeCast_a_1a_apply b hcb (0 : Fin 1) q,
    rowScatterAdd_apply wfS z dcol _ p q, rowScatterAdd_apply wfS z dcol _ p q]
  congr 2
  congr 1
  exact Finset.sum_congr rfl fun e _ => message_eq hN wfG wfV wfD scol tcol h W dv hcN hcE hb1 hb2 e q

/-- The classifier: a row tile's affine map of the whole arrays is the host's product plus the repeated bias row. -/
theorem classifier_eq {G C : ℕ}
    (wfD : DotDims.WF ⟨2, ![G, K]⟩ ⟨2, ![K, C]⟩ ⟨2, ![G, C]⟩ [1] [0] [0] [1] [] [])
    (x : FVec Ideal ⟨2, ![G, K]⟩ .f32) (W : FVec Ideal ⟨2, ![K, C]⟩ .f32) (b : FVec Ideal ⟨1, ![C]⟩ .f32)
    (hcb : (⟨1, ![C]⟩ : Shape).ShapeCasts ⟨2, ![1, C]⟩)
    (hr1 : (⟨1, ![C]⟩ : Shape).BroadcastsInDim ⟨2, ![1, C]⟩ (![1] : Fin 1 → Fin 2))
    (hr2 : (⟨2, ![1, C]⟩ : Shape).BroadcastsInDim ⟨2, ![G, C]⟩ (![0, 1] : Fin 2 → Fin 2)) :
    linBias x W (shapeCast ⟨2, ![1, C]⟩ b hcb)
      = addf (Host.dotGeneral (plain2 wfD) none x W)
          (broadcastInDim ⟨2, ![G, C]⟩ ![0, 1] hr2 (broadcastInDim ⟨2, ![1, C]⟩ ![1] hr1 b)) := by
  funext j
  obtain ⟨p, q, rfl⟩ : ∃ (p : Fin G) (q : Fin C), j = ix2 p q := ⟨j 0, j 1, eq_ix2 j⟩
  rw [linBias_apply, shapeCast_a_1a_apply b hcb (0 : Fin 1) q, addf_apply, hostDot2_apply wfD x W p q,
    bcast_row_rows_apply b hr1 hr2 p q]

end Cert.Gcn

end
-- ==== Proof.Same.lean ====
/-
  The two programs compute one function of the arguments.

  Both build the same index vectors and the same degree normalisation from the edge list, and pool and classify
  in the same way; what differs is inside a layer — where the two normalisation factors of a message are
  multiplied in (an associativity of the extended reals' product, under the scatter's sum) — and the spelling of
  the bias/rectifier stage and of the classifier (a row tile's against the host's).  The shared host-side pieces
  are the same terms in the two programs' vocabularies; each layer is the layer lemma; the classifier is the
  classifier lemma.
-/
import proofs.«175829_j26723286516384_1_alg».proof.Proof.KernelFold
import proofs.«175829_j26723286516384_1_alg».proof.Proof.RefResult
import proofs.«175829_j26723286516384_1_alg».proof.Proof.LibGcnLayerLaw

noncomputable section

namespace Cert.Proof.Same

open Idealize.ShloMosaic Idealize.ShloMosaic.ValueIdx

/-! ## The shared host-side pieces are the same terms -/

theorem srcAll_same : Cert.KernelIdeal.Fold.srcAll = Cert.ReferenceIdeal.Spelled.srcAll := rfl
theorem dstAll_same : Cert.KernelIdeal.Fold.dstAll = Cert.ReferenceIdeal.Spelled.dstAll := rfl
theorem idxCol_same : Cert.KernelIdeal.Fold.idxCol = Cert.ReferenceIdeal.Spelled.idxCol := rfl
theorem wrapCol_same : Cert.KernelIdeal.Fold.wrapCol = Cert.ReferenceIdeal.Spelled.wrapCol := rfl
theorem deg_same : Cert.KernelIdeal.Fold.deg = Cert.ReferenceIdeal.Spelled.deg := rfl
theorem dinv_same : Cert.KernelIdeal.Fold.dinv = Cert.ReferenceIdeal.Spelled.dinv := rfl
theorem pooled_same : Cert.KernelIdeal.Fold.pooledK = Cert.ReferenceIdeal.Spelled.pooledR := rfl

/-! ## The dimension records the two programs print are the ones built from their well-formedness facts -/

theorem scatterK : Cert.KernelIdeal.scatter_S100000x32_S3300000x1_S3300000x32_1_0_0_1
    = Cert.Lib.rowScatter 100000 3300000 32 Cert.KernelIdeal.Facts₀.scatter_S100000x32_S3300000x1_S3300000x32_1_0_0_1_wf := rfl
theorem gatherK : Cert.KernelIdeal.gather_S100000x32_S3300000x1_S3300000x32_1_0_n_n_0_1_132
    = Cert.Lib.rowGather 100000 3300000 32 Cert.KernelIdeal.Facts₀.gather_S100000x32_S3300000x1_S3300000x32_1_0_n_n_0_1_132_wf := rfl
theorem gatherVK : Cert.KernelIdeal.gather_S100000_S3300000x1_S3300000_n_0_n_n_0_1_1
    = Cert.Lib.vecGather 100000 3300000 Cert.KernelIdeal.Facts₀.gather_S100000_S3300000x1_S3300000_n_0_n_n_0_1_1_wf := rfl
theorem scatterR : Cert.ReferenceIdeal.scatter_S100000x32_S3300000x1_S3300000x32_1_0_0_1
    = Cert.Lib.rowScatter 100000 3300000 32 Cert.KernelIdeal.Facts₀.scatter_S100000x32_S3300000x1_S3300000x32_1_0_0_1_wf := rfl
theorem gatherR : Cert.ReferenceIdeal.gather_S100000x32_S3300000x1_S3300000x32_1_0_n_n_0_1_132
    = Cert.Lib.rowGather 100000 3300000 32 Cert.KernelIdeal.Facts₀.gather_S100000x32_S3300000x1_S3300000x32_1_0_n_n_0_1_132_wf := rfl
theorem gatherVR : Cert.ReferenceIdeal.gather_S100000_S3300000x1_S3300000_n_0_n_n_0_1_1
    = Cert.Lib.vecGather 100000 3300000 Cert.KernelIdeal.Facts₀.gather_S100000_S3300000x1_S3300000_n_0_n_n_0_1_1_wf := rfl
theorem dot8R : Cert.ReferenceIdeal.dot_S100000x8_S8x32_S100000x32_1_0_0_1_n_n
    = Cert.Lib.plain2 Cert.ReferenceIdeal.Facts₀.dot_S100000x8_S8x32_S100000x32_1_0_0_1_n_n_wf := rfl
theorem dot32R : Cert.ReferenceIdeal.dot_S100000x32_S32x32_S100000x32_1_0_0_1_n_n
    = Cert.Lib.plain2 Cert.ReferenceIdeal.Facts₀.dot_S100000x32_S32x32_S100000x32_1_0_0_1_n_n_wf := rfl
theorem dotCR : Cert.ReferenceIdeal.dot_S512x32_S32x2_S512x2_1_0_0_1_n_n
    = Cert.Lib.plain2 Cert.ReferenceIdeal.Facts₀.dot_S512x32_S32x2_S512x2_1_0_0_1_n_n_wf := rfl

/-! ## A layer -/

theorem layer_same {K : ℕ}
    (wfD : DotDims.WF ⟨2, ![100000, K]⟩ ⟨2, ![K, 32]⟩ ⟨2, ![100000, 32]⟩ [1] [0] [0] [1] [] [])
    (a1 : IVec ⟨2, ![2, 3200000]⟩ 32) (h : FVec Ideal ⟨2, ![100000, K]⟩ .f32) (W : FVec Ideal ⟨2, ![K, 32]⟩ .f32)
    (b : FVec Ideal ⟨1, ![32]⟩ .f32) :
    Cert.KernelIdeal.Fold.layerK a1 h W b = Cert.ReferenceIdeal.Spelled.layerR (Cert.Lib.plain2 wfD) a1 h W b := by
  unfold Cert.KernelIdeal.Fold.layerK Cert.KernelIdeal.Fold.aggK Cert.KernelIdeal.Fold.msgK Cert.KernelIdeal.Fold.dinvDst Cert.KernelIdeal.Fold.dinvCol Cert.ReferenceIdeal.Spelled.layerR
  rw [dinv_same, wrapCol_same, srcAll_same, dstAll_same, idxCol_same, scatterK, gatherK, gatherVK, scatterR, gatherR, gatherVR]
  exact Cert.Gcn.layer_eq (N := 100000) (E := 3300000) (K := K) (D := 32) (by decide)
    Cert.KernelIdeal.Facts₀.scatter_S100000x32_S3300000x1_S3300000x32_1_0_0_1_wf
    Cert.KernelIdeal.Facts₀.gather_S100000x32_S3300000x1_S3300000x32_1_0_n_n_0_1_132_wf
    Cert.KernelIdeal.Facts₀.gather_S100000_S3300000x1_S3300000_n_0_n_n_0_1_1_wf
    wfD _ _ _ _ h W _ b
    Cert.KernelIdeal.Facts₀.shapeCasts_S100000_S100000x1
    Cert.KernelIdeal.Facts₀.shapeCasts_S3300000_S3300000x1
    Cert.KernelIdeal.Facts₀.shapeCasts_S32_S1x32
    Cert.ReferenceIdeal.Facts₀.bcast_S3300000_S3300000x1_0
    Cert.ReferenceIdeal.Facts₀.bcast_S3300000x1_S3300000x32_0_1
    Cert.ReferenceIdeal.Facts₀.bcast_S32_S1x32_1
    Cert.ReferenceIdeal.Facts₀.bcast_S1x32_S100000x32_0_1
    Cert.ReferenceIdeal.Facts₀.bcast_S_S100000x32

/-! ## The whole program -/

theorem result_same (a0 : FVec Ideal ⟨2, ![100000, 8]⟩ .f32) (a1 : IVec ⟨2, ![2, 3200000]⟩ 32) (a2 : IVec ⟨1, ![100000]⟩ 32)
    (a3 : FVec Ideal ⟨2, ![8, 32]⟩ .f32) (a4 : FVec Ideal ⟨1, ![32]⟩ .f32) (a5 : FVec Ideal ⟨2, ![32, 32]⟩ .f32)
    (a6 : FVec Ideal ⟨1, ![32]⟩ .f32) (a7 : FVec Ideal ⟨2, ![32, 2]⟩ .f32) (a8 : FVec Ideal ⟨1, ![2]⟩ .f32) :
    Cert.KernelIdeal.Fold.resultK a0 a1 a2 a3 a4 a5 a6 a7 a8 = Cert.ReferenceIdeal.Spelled.resultR a0 a1 a2 a3 a4 a5 a6 a7 a8 := by
  unfold Cert.KernelIdeal.Fold.resultK Cert.ReferenceIdeal.Spelled.resultR
  rw [dot8R, dot32R, dotCR,
    layer_same Cert.ReferenceIdeal.Facts₀.dot_S100000x8_S8x32_S100000x32_1_0_0_1_n_n_wf a1 a0 a3 a4,
    layer_same Cert.ReferenceIdeal.Facts₀.dot_S100000x32_S32x32_S100000x32_1_0_0_1_n_n_wf a1 _ a5 a6, pooled_same]
  exact Cert.Gcn.classifier_eq Cert.ReferenceIdeal.Facts₀.dot_S512x32_S32x2_S512x2_1_0_0_1_n_n_wf _ a7 a8
    Cert.KernelIdeal.Facts₀.shapeCasts_S2_S1x2 Cert.ReferenceIdeal.Facts₀.bcast_S2_S1x2_1 Cert.ReferenceIdeal.Facts₀.bcast_S1x2_S512x2_0_1

end Cert.Proof.Same

end
-- ==== Proof.lean ====
/-
  A two-layer graph convolution with mean pooling and a linear classifier: the tiled program against the plain one.

  Nodes carry 8 features; every edge (and one self-loop per node) carries a message from its source to its target.
  With deg p the number of messages arriving at node p and dinv p = deg p ^ (-1/2) where deg p > 0 (else 0), a
  layer maps node features h to  max ( Σ_{e → p} (h W)(src e, ·) · dinv (src e) · dinv (tgt e)  +  b,  0 ).
  Two layers, then the mean of the node rows over each of 512 graphs, then an affine map to 2 classes.

  The tiled program computes the dense stages in seven launches over row tiles (project-and-scale, per-edge scaling,
  bias-and-rectifier, twice; then the classifier) and leaves the gathers and the accumulating scatters to the
  host; it multiplies the source's normalisation in before the gather and the target's after it.  The plain program
  multiplies a gathered row by the product of the two normalisations.  On the extended reals the two are equal by
  the associativity of the product, term by term under the scatter's sum; no finiteness of the inputs is used.

  * The three frames: the generated frame proofs of the two tiled programs, and the plain program's run with its
    result dropped.
  * `preserves`: the idealization rewrote no operation; the claim is `True`.
  * `algebraic`: the tiled program's run ends with its result buffer at `resultK` of the arguments (the fold through
    its segments, each launch's output array one whole-array function of its inputs); the plain program's run ends
    at `resultR` of the arguments; and `resultK = resultR`.
-/
import proofs.«175829_j26723286516384_1_alg».proof.Defs
import proofs.«175829_j26723286516384_1_alg».proof.Proof.Gen.Kernel
import proofs.«175829_j26723286516384_1_alg».proof.Proof.Gen.Kernel.Skeleton
import proofs.«175829_j26723286516384_1_alg».proof.Proof.Gen.Kernel.Launch
import proofs.«175829_j26723286516384_1_alg».proof.Proof.Gen.Kernel.Points
import proofs.«175829_j26723286516384_1_alg».proof.Proof.Gen.Kernel.Frame
import proofs.«175829_j26723286516384_1_alg».proof.Proof.Gen.KernelIdeal
import proofs.«175829_j26723286516384_1_alg».proof.Proof.Gen.KernelIdeal.Skeleton
import proofs.«175829_j26723286516384_1_alg».proof.Proof.Gen.KernelIdeal.Launch
import proofs.«175829_j26723286516384_1_alg».proof.Proof.Gen.KernelIdeal.Points
import proofs.«175829_j26723286516384_1_alg».proof.Proof.Gen.KernelIdeal.Frame
import proofs.«175829_j26723286516384_1_alg».proof.Proof.Gen.ReferenceIdeal
import proofs.«175829_j26723286516384_1_alg».proof.Proof.Gen.Pre_finite_inputs
import proofs.«175829_j26723286516384_1_alg».proof.Proof.RefRun
import proofs.«175829_j26723286516384_1_alg».proof.Proof.KernelRun
import proofs.«175829_j26723286516384_1_alg».proof.Proof.KernelFold
import proofs.«175829_j26723286516384_1_alg».proof.Proof.RefResult
import proofs.«175829_j26723286516384_1_alg».proof.Proof.Same
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with their result buffer at one function of the arguments. -/
theorem algebraic : Cert.algebraic_KernelIdeal_ReferenceIdeal := by
  intro m ρ m' ρ' _ hagree
  refine ⟨fun c => Cert.KernelIdeal.Fold.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Fold.result_at16 m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Spelled.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Proof.Same.result_same _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
